-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S1600000 : Shape := ⟨1, ![1600000]⟩
abbrev S384x64 : Shape := ⟨2, ![384, 64]⟩
abbrev S64 : Shape := ⟨1, ![64]⟩
abbrev S2x64x64 : Shape := ⟨3, ![2, 64, 64]⟩
abbrev S2x64 : Shape := ⟨2, ![2, 64]⟩
abbrev S1024 : Shape := ⟨1, ![1024]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1600000x64 : Shape := ⟨2, ![1600000, 64]⟩
abbrev S100000x1 : Shape := ⟨2, ![100000, 1]⟩
abbrev S1024x1 : Shape := ⟨2, ![1024, 1]⟩
abbrev S1024x64 : Shape := ⟨2, ![1024, 64]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x64x64_S1x64x64_1_0_0 : S2x64x64.Slices ![1, 0, 0] S1x64x64
  slices_S2x64_S1x64_1_0 : S2x64.Slices ![1, 0] S1x64
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  bcast_S_S1024x1 : S_.BroadcastsInDim S1024x1 (![] : Fin 0 → Fin S1024x1.rank)
  reducesTo_S1024x1_S_d0_1 : S1024x1.ReducesTo [0, 1] S_
  scatter_S100000_S1600000x1_S1600000_n_0_0_1_wf : ScatterDims.WF S100000 S1600000x1 S1600000 [] [0] [0] 1
  dot_S100000x384_S384x64_S100000x64_1_0_0_1_n_n_wf : DotDims.WF S100000x384 S384x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S1024x1_S1024x64_1_0_n_n_0_1_164_wf : GatherDims.WF S100000x64 S1024x1 S1024x64 [1] [0] [] [0] [] 1 ![1, 64]

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def fn_part10 {F : FTy → Type} [FloatOps F] (main_arg12 : IVec S1024 32) (main_v48 : IVec S_ 1) (main_v134 : FVec F S100000x64 .f32) (main_v164 : FVec F S100000x64 .f32) (main_v192 : FVec F S100000x64 .f32) (main_v193 : FVec F S100000x64 .f32) : IVec S_ 1 :=
  let main_v194 : FVec F S100000x64 .f32 := maximumf main_v192 main_v193
  let main_v195 : FVec F S100000x64 .f32 := addf main_v164 main_v194
  let main_v196 : FVec F S100000x64 .f32 := addf main_v134 main_v195
  let main_c_44 : IVec S_ 32 := constantI S_ 32 0#32
  let main_v197 : IVec S1024 32 := broadcastInDim S1024 ![] bcast_S_S1024 main_c_44
  let main_v198 : IVec S1024 1 := cmpi .slt main_arg12 main_v197
  let main_c_45 : IVec S_ 32 := constantI S_ 32 100000#32
  let main_v199 : IVec S1024 32 := broadcastInDim S1024 ![] bcast_S_S1024 main_c_45
  let main_v200 : IVec S1024 32 := addi main_arg12 main_v199
  let main_v201 : IVec S1024 32 := select main_v198 main_v200 main_arg12
  let main_v202 : IVec S1024x1 32 := broadcastInDim S1024x1 ![0] bcast_S1024_S1024x1_0 main_v201
  let main_v203 : FVec F S1024x64 .f32 := (fun x i => Host.gather gather_S100000x64_S1024x1_S1024x64_1_0_n_n_0_1_164 x i) main_v196 main_v202
  let main_v204 : FVec F S1024x64 .f32 := mulf main_v203 main_v203
  let main_cst_46 : FVec F S_ .f32 := constant S_ .f32 0x00000000#32
  let main_v205 : FVec F S1024 .f32 := (fun x v => Host.reduceAdd x v reducesTo_S1024x64_S1024_d1 h_S_) main_v204 main_cst_46
  let main_v206 : FVec F S1024x1 .f32 := broadcastInDim S1024x1 ![0] bcast_S1024_S1024x1_0 main_v205
  let main_v207 : FVec F S1024x1 .f32 := Host.sqrt main_v206
  let main_cst_47 : FVec F S_ .f32 := constant S_ .f32 0x00000000#32
  let main_v208 : FVec F S1024x1 .f32 := broadcastInDim S1024x1 ![] bcast_S_S1024x1 main_cst_47
  let main_v209 : IVec S1024x1 1 := cmpf .ogt main_v207 main_v208
  let main_c_48 : IVec S_ 1 := constantI S_ 1 1#1
  let main_v210 : IVec S_ 1 := (fun x v => Host.reduce IntOp.andi x v reducesTo_S1024x1_S_d0_1 h_S_) main_v209 main_c_48
  let main_v211 : IVec S_ 1 := andi main_v48 main_v210
  main_v211

def fn_part9 {F : FTy → Type} [FloatOps F] (main_arg10 : IVec S1600000 32) (main_arg11 : IVec S1600000 32) (main_arg12 : IVec S1024 32) (main_v48 : IVec S_ 1) (main_v68 : FVec F S100000 .f32) (main_v134 : FVec F S100000x64 .f32) (main_v164 : FVec F S100000x64 .f32) (main_v166 : FVec F S64x64 .f32) (main_v168 : FVec F S64x64 .f32) (main_v170 : FVec F S64 .f32) (main_v171 : FVec F S1600000x1 .f32) (main_v172 : IVec S1600000 32) : IVec S_ 1 :=
  let main_v173 : IVec S1600000 1 := cmpi .slt main_arg11 main_v172
  let main_c_41 : IVec S_ 32 := constantI S_ 32 100000#32
  let main_v174 : IVec S1600000 32 := broadcastInDim S1600000 ![] bcast_S_S1600000 main_c_41
  let main_v175 : IVec S1600000 32 := addi main_arg11 main_v174
  let main_v176 : IVec S1600000 32 := select main_v173 main_v175 main_arg11
  let main_v177 : IVec S1600000x1 32 := broadcastInDim S1600000x1 ![0] bcast_S1600000_S1600000x1_0 main_v176
  let main_v178 : FVec F S1600000x64 .f32 := (fun x i => Host.gather gather_S100000x64_S1600000x1_S1600000x64_1_0_n_n_0_1_164 x i) main_v134 main_v177
  let main_v179 : FVec F S1600000x64 .f32 := broadcastInDim S1600000x64 ![0, 1] bcast_S1600000x1_S1600000x64_0_1 main_v171
  let main_v180 : FVec F S1600000x64 .f32 := mulf main_v179 main_v178
  let main_cst_42 : FVec F S_ .f32 := constant S_ .f32 0x00000000#32
  let main_v181 : FVec F S100000x64 .f32 := broadcastInDim S100000x64 ![] bcast_S_S100000x64 main_cst_42
  let main_v182 : IVec S1600000x1 32 := broadcastInDim S1600000x1 ![0] bcast_S1600000_S1600000x1_0 main_arg10
  let main_v183 : FVec F S100000x64 .f32 := (fun x i u => Host.scatterAdd scatter_S100000x64_S1600000x1_S1600000x64_1_0_0_1 x i u) main_v181 main_v182 main_v180
  let main_v184 : FVec F S100000x1 .f32 := broadcastInDim S100000x1 ![0] bcast_S100000_S100000x1_0 main_v68
  let main_v185 : FVec F S100000x64 .f32 := broadcastInDim S100000x64 ![0, 1] bcast_S100000x1_S100000x64_0_1 main_v184
  let main_v186 : FVec F S100000x64 .f32 := mulf main_v183 main_v185
  let main_v187 : FVec F S100000x64 .f32 := (fun l r => Host.dotGeneral dot_S100000x64_S64x64_S100000x64_1_0_0_1_n_n none l r) main_v134 main_v166
  let main_v188 : FVec F S100000x64 .f32 := (fun l r => Host.dotGeneral dot_S100000x64_S64x64_S100000x64_1_0_0_1_n_n none l r) main_v186 main_v168
  let main_v189 : FVec F S100000x64 .f32 := addf main_v187 main_v188
  let main_v190 : FVec F S1x64 .f32 := broadcastInDim S1x64 ![1] bcast_S64_S1x64_1 main_v170
  let main_v191 : FVec F S100000x64 .f32 := broadcastInDim S100000x64 ![0, 1] bcast_S1x64_S100000x64_0_1 main_v190
  let main_v192 : FVec F S100000x64 .f32 := addf main_v189 main_v191
  let main_cst_43 : FVec F S_ .f32 := constant S_ .f32 0x00000000#32
  let main_v193 : FVec F S100000x64 .f32 := broadcastInDim S100000x64 ![] bcast_S_S100000x64 main_cst_43
  fn_part10 (F := F) main_arg12 main_v48 main_v134 main_v164 main_v192 main_v193

def fn_part8 {F : FTy → Type} [FloatOps F] (main_arg1 : FVec F S1600000 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v48 : IVec S_ 1) (main_v58 : FVec F S100000 .f32) (main_v68 : FVec F S100000 .f32) (main_v134 : FVec F S100000x64 .f32) (main_v136 : FVec F S64x64 .f32) (main_v138 : FVec F S64x64 .f32) (main_v140 : FVec F S64 .f32) (main_v150 : FVec F S1600000x64 .f32) (main_cst_38 : FVec F S_ .f32) : IVec S_ 1 :=
  let main_v151 : FVec F S100000x64 .f32 := broadcastInDim S100000x64 ![] bcast_S_S100000x64 main_cst_38
  let main_v152 : IVec S1600000x1 32 := broadcastInDim S1600000x1 ![0] bcast_S1600000_S1600000x1_0 main_arg11
  let main_v153 : FVec F S100000x64 .f32 := (fun x i u => Host.scatterAdd scatter_S100000x64_S1600000x1_S1600000x64_1_0_0_1 x i u) main_v151 main_v152 main_v150
  let main_v154 : FVec F S100000x1 .f32 := broadcastInDim S100000x1 ![0] bcast_S100000_S100000x1_0 main_v58
  let main_v155 : FVec F S100000x64 .f32 := broadcastInDim S100000x64 ![0, 1] bcast_S100000x1_S100000x64_0_1 main_v154
  let main_v156 : FVec F S100000x64 .f32 := mulf main_v153 main_v155
  let main_v157 : FVec F S100000x64 .f32 := (fun l r => Host.dotGeneral dot_S100000x64_S64x64_S100000x64_1_0_0_1_n_n none l r) main_v134 main_v136
  let main_v158 : FVec F S100000x64 .f32 := (fun l r => Host.dotGeneral dot_S100000x64_S64x64_S100000x64_1_0_0_1_n_n none l r) main_v156 main_v138
  let main_v159 : FVec F S100000x64 .f32 := addf main_v157 main_v158
  let main_v160 : FVec F S1x64 .f32 := broadcastInDim S1x64 ![1] bcast_S64_S1x64_1 main_v140
  let main_v161 : FVec F S100000x64 .f32 := broadcastInDim S100000x64 ![0, 1] bcast_S1x64_S100000x64_0_1 main_v160
  let main_v162 : FVec F S100000x64 .f32 := addf main_v159 main_v161
  let main_cst_39 : FVec F S_ .f32 := constant S_ .f32 0x00000000#32
  let main_v163 : FVec F S100000x64 .f32 := broadcastInDim S100000x64 ![] bcast_S_S100000x64 main_cst_39
  let main_v164 : FVec F S100000x64 .f32 := maximumf main_v162 main_v163
  let main_v165 : FVec F S1x64x64 .f32 := (extractStridedSlice S1x64x64 ![1, 0, 0] · slices_S2x64x64_S1x64x64_1_0_0) main_arg7
  let main_v166 : FVec F S64x64 .f32 := shapeCast S64x64 main_v165 shapeCasts_S1x64x64_S64x64
  let main_v167 : FVec F S1x64x64 .f32 := (extractStridedSlice S1x64x64 ![1, 0, 0] · slices_S2x64x64_S1x64x64_1_0_0) main_arg8
  let main_v168 : FVec F S64x64 .f32 := shapeCast S64x64 main_v167 shapeCasts_S1x64x64_S64x64
  let main_v169 : FVec F S1x64 .f32 := (extractStridedSlice S1x64 ![1, 0] · slices_S2x64_S1x64_1_0) main_arg9
  let main_v170 : FVec F S64 .f32 := shapeCast S64 main_v169 shapeCasts_S1x64_S64
  let main_v171 : FVec F S1600000x1 .f32 := broadcastInDim S1600000x1 ![0] bcast_S1600000_S1600000x1_0 main_arg1
  let main_c_40 : IVec S_ 32 := constantI S_ 32 0#32
  let main_v172 : IVec S1600000 32 := broadcastInDim S1600000 ![] bcast_S_S1600000 main_c_40
  fn_part9 (F := F) main_arg10 main_arg11 main_arg12 main_v48 main_v68 main_v134 main_v164 main_v166 main_v168 main_v170 main_v171 main_v172

def fn_part7 {F : FTy → Type} [FloatOps F] (main_arg1 : FVec F S1600000 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v48 : IVec S_ 1) (main_v58 : FVec F S100000 .f32) (main_v68 : FVec F S100000 .f32) (main_v72 : FVec F S100000x64 .f32) (main_v102 : FVec F S100000x64 .f32) (main_v130 : FVec F S100000x64 .f32) : IVec S_ 1 :=
  let main_cst_35 : FVec F S_ .f32 := constant S_ .f32 0x00000000#32
  let main_v131 : FVec F S100000x64 .f32 := broadcastInDim S100000x64 ![] bcast_S_S100000x64 main_cst_35
  let main_v132 : FVec F S100000x64 .f32 := maximumf main_v130 main_v131
  let main_v133 : FVec F S100000x64 .f32 := addf main_v102 main_v132
  let main_v134 : FVec F S100000x64 .f32 := addf main_v72 main_v133
  let main_v135 : FVec F S1x64x64 .f32 := (extractStridedSlice S1x64x64 ![1, 0, 0] · slices_S2x64x64_S1x64x64_1_0_0) main_arg4
  let main_v136 : FVec F S64x64 .f32 := shapeCast S64x64 main_v135 shapeCasts_S1x64x64_S64x64
  let main_v137 : FVec F S1x64x64 .f32 := (extractStridedSlice S1x64x64 ![1, 0, 0] · slices_S2x64x64_S1x64x64_1_0_0) main_arg5
  let main_v138 : FVec F S64x64 .f32 := shapeCast S64x64 main_v137 shapeCasts_S1x64x64_S64x64
  let main_v139 : FVec F S1x64 .f32 := (extractStridedSlice S1x64 ![1, 0] · slices_S2x64_S1x64_1_0) main_arg6
  let main_v140 : FVec F S64 .f32 := shapeCast S64 main_v139 shapeCasts_S1x64_S64
  let main_v141 : FVec F S1600000x1 .f32 := broadcastInDim S1600000x1 ![0] bcast_S1600000_S1600000x1_0 main_arg1
  let main_c_36 : IVec S_ 32 := constantI S_ 32 0#32
  let main_v142 : IVec S1600000 32 := broadcastInDim S1600000 ![] bcast_S_S1600000 main_c_36
  let main_v143 : IVec S1600000 1 := cmpi .slt main_arg10 main_v142
  let main_c_37 : IVec S_ 32 := constantI S_ 32 100000#32
  let main_v144 : IVec S1600000 32 := broadcastInDim S1600000 ![] bcast_S_S1600000 main_c_37
  let main_v145 : IVec S1600000 32 := addi main_arg10 main_v144
  let main_v146 : IVec S1600000 32 := select main_v143 main_v145 main_arg10
  let main_v147 : IVec S1600000x1 32 := broadcastInDim S1600000x1 ![0] bcast_S1600000_S1600000x1_0 main_v146
  let main_v148 : FVec F S1600000x64 .f32 := (fun x i => Host.gather gather_S100000x64_S1600000x1_S1600000x64_1_0_n_n_0_1_164 x i) main_v134 main_v147
  let main_v149 : FVec F S1600000x64 .f32 := broadcastInDim S1600000x64 ![0, 1] bcast_S1600000x1_S1600000x64_0_1 main_v141
  let main_v150 : FVec F S1600000x64 .f32 := mulf main_v149 main_v148
  let main_cst_38 : FVec F S_ .f32 := constant S_ .f32 0x00000000#32
  fn_part8 (F := F) main_arg1 main_arg7 main_arg8 main_arg9 main_arg10 main_arg11 main_arg12 main_v48 main_v58 main_v68 main_v134 main_v136 main_v138 main_v140 main_v150 main_cst_38

def fn_part6 {F : FTy → Type} [FloatOps F] (main_arg1 : FVec F S1600000 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v48 : IVec S_ 1) (main_v58 : FVec F S100000 .f32) (main_v68 : FVec F S100000 .f32) (main_v72 : FVec F S100000x64 .f32) (main_v102 : FVec F S100000x64 .f32) (main_v104 : FVec F S64x64 .f32) (main_v106 : FVec F S64x64 .f32) (main_v108 : FVec F S64 .f32) (main_v109 : FVec F S1600000x1 .f32) : IVec S_ 1 :=
  let main_c_32 : IVec S_ 32 := constantI S_ 32 0#32
  let main_v110 : IVec S1600000 32 := broadcastInDim S1600000 ![] bcast_S_S1600000 main_c_32
  let main_v111 : IVec S1600000 1 := cmpi .slt main_arg11 main_v110
  let main_c_33 : IVec S_ 32 := constantI S_ 32 100000#32
  let main_v112 : IVec S1600000 32 := broadcastInDim S1600000 ![] bcast_S_S1600000 main_c_33
  let main_v113 : IVec S1600000 32 := addi main_arg11 main_v112
  let main_v114 : IVec S1600000 32 := select main_v111 main_v113 main_arg11
  let main_v115 : IVec S1600000x1 32 := broadcastInDim S1600000x1 ![0] bcast_S1600000_S1600000x1_0 main_v114
  let main_v116 : FVec F S1600000x64 .f32 := (fun x i => Host.gather gather_S100000x64_S1600000x1_S1600000x64_1_0_n_n_0_1_164 x i) main_v72 main_v115
  let main_v117 : FVec F S1600000x64 .f32 := broadcastInDim S1600000x64 ![0, 1] bcast_S1600000x1_S1600000x64_0_1 main_v109
  let main_v118 : FVec F S1600000x64 .f32 := mulf main_v117 main_v116
  let main_cst_34 : FVec F S_ .f32 := constant S_ .f32 0x00000000#32
  let main_v119 : FVec F S100000x64 .f32 := broadcastInDim S100000x64 ![] bcast_S_S100000x64 main_cst_34
  let main_v120 : IVec S1600000x1 32 := broadcastInDim S1600000x1 ![0] bcast_S1600000_S1600000x1_0 main_arg10
  let main_v121 : FVec F S100000x64 .f32 := (fun x i u => Host.scatterAdd scatter_S100000x64_S1600000x1_S1600000x64_1_0_0_1 x i u) main_v119 main_v120 main_v118
  let main_v122 : FVec F S100000x1 .f32 := broadcastInDim S100000x1 ![0] bcast_S100000_S100000x1_0 main_v68
  let main_v123 : FVec F S100000x64 .f32 := broadcastInDim S100000x64 ![0, 1] bcast_S100000x1_S100000x64_0_1 main_v122
  let main_v124 : FVec F S100000x64 .f32 := mulf main_v121 main_v123
  let main_v125 : FVec F S100000x64 .f32 := (fun l r => Host.dotGeneral dot_S100000x64_S64x64_S100000x64_1_0_0_1_n_n none l r) main_v72 main_v104
  let main_v126 : FVec F S100000x64 .f32 := (fun l r => Host.dotGeneral dot_S100000x64_S64x64_S100000x64_1_0_0_1_n_n none l r) main_v124 main_v106
  let main_v127 : FVec F S100000x64 .f32 := addf main_v125 main_v126
  let main_v128 : FVec F S1x64 .f32 := broadcastInDim S1x64 ![1] bcast_S64_S1x64_1 main_v108
  let main_v129 : FVec F S100000x64 .f32 := broadcastInDim S100000x64 ![0, 1] bcast_S1x64_S100000x64_0_1 main_v128
  let main_v130 : FVec F S100000x64 .f32 := addf main_v127 main_v129
  fn_part7 (F := F) main_arg1 main_arg4 main_arg5 main_arg6 main_arg7 main_arg8 main_arg9 main_arg10 main_arg11 main_arg12 main_v48 main_v58 main_v68 main_v72 main_v102 main_v130

def fn_part5 {F : FTy → Type} [FloatOps F] (main_arg1 : FVec F S1600000 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v48 : IVec S_ 1) (main_v58 : FVec F S100000 .f32) (main_v68 : FVec F S100000 .f32) (main_v72 : FVec F S100000x64 .f32) (main_v74 : FVec F S64x64 .f32) (main_v76 : FVec F S64x64 .f32) (main_v78 : FVec F S64 .f32) (main_v86 : FVec F S1600000x64 .f32) (main_v87 : FVec F S1600000x64 .f32) : IVec S_ 1 :=
  let main_v88 : FVec F S1600000x64 .f32 := mulf main_v87 main_v86
  let main_cst_30 : FVec F S_ .f32 := constant S_ .f32 0x00000000#32
  let main_v89 : FVec F S100000x64 .f32 := broadcastInDim S100000x64 ![] bcast_S_S100000x64 main_cst_30
  let main_v90 : IVec S1600000x1 32 := broadcastInDim S1600000x1 ![0] bcast_S1600000_S1600000x1_0 main_arg11
  let main_v91 : FVec F S100000x64 .f32 := (fun x i u => Host.scatterAdd scatter_S100000x64_S1600000x1_S1600000x64_1_0_0_1 x i u) main_v89 main_v90 main_v88
  let main_v92 : FVec F S100000x1 .f32 := broadcastInDim S100000x1 ![0] bcast_S100000_S100000x1_0 main_v58
  let main_v93 : FVec F S100000x64 .f32 := broadcastInDim S100000x64 ![0, 1] bcast_S100000x1_S100000x64_0_1 main_v92
  let main_v94 : FVec F S100000x64 .f32 := mulf main_v91 main_v93
  let main_v95 : FVec F S100000x64 .f32 := (fun l r => Host.dotGeneral dot_S100000x64_S64x64_S100000x64_1_0_0_1_n_n none l r) main_v72 main_v74
  let main_v96 : FVec F S100000x64 .f32 := (fun l r => Host.dotGeneral dot_S100000x64_S64x64_S100000x64_1_0_0_1_n_n none l r) main_v94 main_v76
  let main_v97 : FVec F S100000x64 .f32 := addf main_v95 main_v96
  let main_v98 : FVec F S1x64 .f32 := broadcastInDim S1x64 ![1] bcast_S64_S1x64_1 main_v78
  let main_v99 : FVec F S100000x64 .f32 := broadcastInDim S100000x64 ![0, 1] bcast_S1x64_S100000x64_0_1 main_v98
  let main_v100 : FVec F S100000x64 .f32 := addf main_v97 main_v99
  let main_cst_31 : FVec F S_ .f32 := constant S_ .f32 0x00000000#32
  let main_v101 : FVec F S100000x64 .f32 := broadcastInDim S100000x64 ![] bcast_S_S100000x64 main_cst_31
  let main_v102 : FVec F S100000x64 .f32 := maximumf main_v100 main_v101
  let main_v103 : FVec F S1x64x64 .f32 := (extractStridedSlice S1x64x64 ![0, 0, 0] · slices_S2x64x64_S1x64x64_0_0_0) main_arg7
  let main_v104 : FVec F S64x64 .f32 := shapeCast S64x64 main_v103 shapeCasts_S1x64x64_S64x64
  let main_v105 : FVec F S1x64x64 .f32 := (extractStridedSlice S1x64x64 ![0, 0, 0] · slices_S2x64x64_S1x64x64_0_0_0) main_arg8
  let main_v106 : FVec F S64x64 .f32 := shapeCast S64x64 main_v105 shapeCasts_S1x64x64_S64x64
  let main_v107 : FVec F S1x64 .f32 := (extractStridedSlice S1x64 ![0, 0] · slices_S2x64_S1x64_0_0) main_arg9
  let main_v108 : FVec F S64 .f32 := shapeCast S64 main_v107 shapeCasts_S1x64_S64
  let main_v109 : FVec F S1600000x1 .f32 := broadcastInDim S1600000x1 ![0] bcast_S1600000_S1600000x1_0 main_arg1
  fn_part6 (F := F) main_arg1 main_arg4 main_arg5 main_arg6 main_arg7 main_arg8 main_arg9 main_arg10 main_arg11 main_arg12 main_v48 main_v58 main_v68 main_v72 main_v102 main_v104 main_v106 main_v108 main_v109

def fn_part4 {F : FTy → Type} [FloatOps F] (main_arg0 : FVec F S100000x384 .f32) (main_arg1 : FVec F S1600000 .f32) (main_arg2 : FVec F S384x64 .f32) (main_arg3 : FVec F S64 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v48 : IVec S_ 1) (main_v58 : FVec F S100000 .f32) (main_v64 : IVec S100000 1) (main_v66 : FVec F S100000 .f32) : IVec S_ 1 :=
  let main_cst_27 : FVec F S_ .f32 := constant S_ .f32 0x00000000#32
  let main_v67 : FVec F S100000 .f32 := broadcastInDim S100000 ![] bcast_S_S100000 main_cst_27
  let main_v68 : FVec F S100000 .f32 := select main_v64 main_v66 main_v67
  let main_v69 : FVec F S100000x64 .f32 := (fun l r => Host.dotGeneral dot_S100000x384_S384x64_S100000x64_1_0_0_1_n_n none l r) main_arg0 main_arg2
  let main_v70 : FVec F S1x64 .f32 := broadcastInDim S1x64 ![1] bcast_S64_S1x64_1 main_arg3
  let main_v71 : FVec F S100000x64 .f32 := broadcastInDim S100000x64 ![0, 1] bcast_S1x64_S100000x64_0_1 main_v70
  let main_v72 : FVec F S100000x64 .f32 := addf main_v69 main_v71
  let main_v73 : FVec F S1x64x64 .f32 := (extractStridedSlice S1x64x64 ![0, 0, 0] · slices_S2x64x64_S1x64x64_0_0_0) main_arg4
  let main_v74 : FVec F S64x64 .f32 := shapeCast S64x64 main_v73 shapeCasts_S1x64x64_S64x64
  let main_v75 : FVec F S1x64x64 .f32 := (extractStridedSlice S1x64x64 ![0, 0, 0] · slices_S2x64x64_S1x64x64_0_0_0) main_arg5
  let main_v76 : FVec F S64x64 .f32 := shapeCast S64x64 main_v75 shapeCasts_S1x64x64_S64x64
  let main_v77 : FVec F S1x64 .f32 := (extractStridedSlice S1x64 ![0, 0] · slices_S2x64_S1x64_0_0) main_arg6
  let main_v78 : FVec F S64 .f32 := shapeCast S64 main_v77 shapeCasts_S1x64_S64
  let main_v79 : FVec F S1600000x1 .f32 := broadcastInDim S1600000x1 ![0] bcast_S1600000_S1600000x1_0 main_arg1
  let main_c_28 : IVec S_ 32 := constantI S_ 32 0#32
  let main_v80 : IVec S1600000 32 := broadcastInDim S1600000 ![] bcast_S_S1600000 main_c_28
  let main_v81 : IVec S1600000 1 := cmpi .slt main_arg10 main_v80
  let main_c_29 : IVec S_ 32 := constantI S_ 32 100000#32
  let main_v82 : IVec S1600000 32 := broadcastInDim S1600000 ![] bcast_S_S1600000 main_c_29
  let main_v83 : IVec S1600000 32 := addi main_arg10 main_v82
  let main_v84 : IVec S1600000 32 := select main_v81 main_v83 main_arg10
  let main_v85 : IVec S1600000x1 32 := broadcastInDim S1600000x1 ![0] bcast_S1600000_S1600000x1_0 main_v84
  let main_v86 : FVec F S1600000x64 .f32 := (fun x i => Host.gather gather_S100000x64_S1600000x1_S1600000x64_1_0_n_n_0_1_164 x i) main_v72 main_v85
  let main_v87 : FVec F S1600000x64 .f32 := broadcastInDim S1600000x64 ![0, 1] bcast_S1600000x1_S1600000x64_0_1 main_v79
  fn_part5 (F := F) main_arg1 main_arg4 main_arg5 main_arg6 main_arg7 main_arg8 main_arg9 main_arg10 main_arg11 main_arg12 main_v48 main_v58 main_v68 main_v72 main_v74 main_v76 main_v78 main_v86 main_v87

def fn_part3 {F : FTy → Type} [FloatOps F] (main_arg0 : FVec F S100000x384 .f32) (main_arg1 : FVec F S1600000 .f32) (main_arg2 : FVec F S384x64 .f32) (main_arg3 : FVec F S64 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v48 : IVec S_ 1) (main_v49 : FVec F S100000 .f32) (main_v50 : IVec S1600000x1 32) : IVec S_ 1 :=
  let main_cst_19 : FVec F S_ .f32 := constant S_ .f32 0x3F800000#32
  let main_v51 : FVec F S1600000 .f32 := broadcastInDim S1600000 ![] bcast_S_S1600000 main_cst_19
  let main_v52 : FVec F S100000 .f32 := (fun x i u => Host.scatterAdd scatter_S100000_S1600000x1_S1600000_n_0_0_1 x i u) main_v49 main_v50 main_v51
  let main_cst_20 : FVec F S_ .f32 := constant S_ .f32 0x00000000#32
  let main_v53 : FVec F S100000 .f32 := broadcastInDim S100000 ![] bcast_S_S100000 main_cst_20
  let main_v54 : IVec S100000 1 := cmpf .ogt main_v52 main_v53
  let main_cst_21 : FVec F S_ .f32 := constant S_ .f32 0x3F800000#32
  let main_v55 : FVec F S100000 .f32 := broadcastInDim S100000 ![] bcast_S_S100000 main_cst_21
  let main_v56 : FVec F S100000 .f32 := Host.divf main_v55 main_v52
  let main_cst_22 : FVec F S_ .f32 := constant S_ .f32 0x00000000#32
  let main_v57 : FVec F S100000 .f32 := broadcastInDim S100000 ![] bcast_S_S100000 main_cst_22
  let main_v58 : FVec F S100000 .f32 := select main_v54 main_v56 main_v57
  let main_cst_23 : FVec F S_ .f32 := constant S_ .f32 0x00000000#32
  let main_v59 : FVec F S100000 .f32 := broadcastInDim S100000 ![] bcast_S_S100000 main_cst_23
  let main_v60 : IVec S1600000x1 32 := broadcastInDim S1600000x1 ![0] bcast_S1600000_S1600000x1_0 main_arg10
  let main_cst_24 : FVec F S_ .f32 := constant S_ .f32 0x3F800000#32
  let main_v61 : FVec F S1600000 .f32 := broadcastInDim S1600000 ![] bcast_S_S1600000 main_cst_24
  let main_v62 : FVec F S100000 .f32 := (fun x i u => Host.scatterAdd scatter_S100000_S1600000x1_S1600000_n_0_0_1 x i u) main_v59 main_v60 main_v61
  let main_cst_25 : FVec F S_ .f32 := constant S_ .f32 0x00000000#32
  let main_v63 : FVec F S100000 .f32 := broadcastInDim S100000 ![] bcast_S_S100000 main_cst_25
  let main_v64 : IVec S100000 1 := cmpf .ogt main_v62 main_v63
  let main_cst_26 : FVec F S_ .f32 := constant S_ .f32 0x3F800000#32
  let main_v65 : FVec F S100000 .f32 := broadcastInDim S100000 ![] bcast_S_S100000 main_cst_26
  let main_v66 : FVec F S100000 .f32 := Host.divf main_v65 main_v62
  fn_part4 (F := F) main_arg0 main_arg1 main_arg2 main_arg3 main_arg4 main_arg5 main_arg6 main_arg7 main_arg8 main_arg9 main_arg10 main_arg11 main_arg12 main_v48 main_v58 main_v64 main_v66

def fn_part2 {F : FTy → Type} [FloatOps F] (main_arg0 : FVec F S100000x384 .f32) (main_arg1 : FVec F S1600000 .f32) (main_arg2 : FVec F S384x64 .f32) (main_arg3 : FVec F S64 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64x64 .f32 := Host.absf main_arg8
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_cst_18 : FVec F S_ .f32 := constant S_ .f32 0x00000000#32
  let main_v49 : FVec F S100000 .f32 := broadcastInDim S100000 ![] bcast_S_S100000 main_cst_18
  let main_v50 : IVec S1600000x1 32 := broadcastInDim S1600000x1 ![0] bcast_S1600000_S1600000x1_0 main_arg11
  fn_part3 (F := F) main_arg0 main_arg1 main_arg2 main_arg3 main_arg4 main_arg5 main_arg6 main_arg7 main_arg8 main_arg9 main_arg10 main_arg11 main_arg12 main_v48 main_v49 main_v50

def fn_part1 {F : FTy → Type} [FloatOps F] (main_arg0 : FVec F S100000x384 .f32) (main_arg1 : FVec F S1600000 .f32) (main_arg2 : FVec F S384x64 .f32) (main_arg3 : FVec F S64 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64x64 .f32 := Host.absf main_arg5
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_v33

def fn {F : FTy → Type} [FloatOps F] (main_arg0 : FVec F S100000x384 .f32) (main_arg1 : FVec F S1600000 .f32) (main_arg2 : FVec F S384x64 .f32) (main_arg3 : FVec F S64 .f32) (main_arg4 : FVec F S2x64x64 .f32) (main_arg5 : FVec F S2x64x64 .f32) (main_arg6 : FVec F S2x64 .f32) (main_arg7 : FVec F S2x64x64 .f32) (main_arg8 : FVec F S2x64x64 .f32) (main_arg9 : FVec F S2x64 .f32) (main_arg10 : IVec S1600000 32) (main_arg11 : IVec S1600000 32) (main_arg12 : IVec S1024 32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg2 main_arg3 main_arg4 main_arg5 main_arg6 main_arg7 main_arg8 main_arg9 main_arg10 main_arg11 main_arg12 main_v13 main_v16
-- ==== Kernel.lean ====
abbrev S100000x384 : Shape := ⟨2, ![100000, 384]⟩
abbrev S1600000 : Shape := ⟨1, ![1600000]⟩
abbrev S384x64 : Shape := ⟨2, ![384, 64]⟩
abbrev S64 : Shape := ⟨1, ![64]⟩
abbrev S2x64x64 : Shape := ⟨3, ![2, 64, 64]⟩
abbrev S2x64 : Shape := ⟨2, ![2, 64]⟩
abbrev S1024 : Shape := ⟨1, ![1024]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x384 : Shape := ⟨2, ![5000, 384]⟩
abbrev S5000x64 : Shape := ⟨2, ![5000, 64]⟩
abbrev S1x64 : Shape := ⟨2, ![1, 64]⟩
abbrev S1600000x64 : Shape := ⟨2, ![1600000, 64]⟩
abbrev S100000x1 : Shape := ⟨2, ![100000, 1]⟩
abbrev S1x64x64 : Shape := ⟨3, ![1, 64, 64]⟩
abbrev S64x64 : Shape := ⟨2, ![64, 64]⟩
abbrev S1024x1 : Shape := ⟨2, ![1024, 1]⟩
abbrev S1024x64 : Shape := ⟨2, ![1024, 64]⟩

abbrev nBuf : Space → Nat
  | .hbm => 158
  | .vmem => 36
  | .smem => 0
  | _ => 0

abbrev hbmTy0_0 (i : Nat) : BufTy := match i % 128 with
  | 0 => ⟨S100000x384, .f32⟩
  | 1 => ⟨S1600000, .f32⟩
  | 2 => ⟨S384x64, .f32⟩
  | 3 => ⟨S64, .f32⟩
  | 4 => ⟨S2x64x64, .f32⟩
  | 5 => ⟨S2x64x64, .f32⟩
  | 6 => ⟨S2x64, .f32⟩
  | 7 => ⟨S2x64x64, .f32⟩
  | 8 => ⟨S2x64x64, .f32⟩
  | 9 => ⟨S2x64, .f32⟩
  | 10 => ⟨S1600000, .i32⟩
  | 11 => ⟨S1600000, .i32⟩
  | 12 => ⟨S1024, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x64, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000x1, .f32⟩
  | 63 => ⟨S100000x64, .f32⟩
  | 64 => ⟨S100000x64, .f32⟩
  | 65 => ⟨S1600000x1, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S1600000x64, .f32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S100000x1, .f32⟩
  | 82 => ⟨S100000x64, .f32⟩
  | 83 => ⟨S100000x64, .f32⟩
  | 84 => ⟨S1x64x64, .f32⟩
  | 85 => ⟨S64x64, .f32⟩
  | 86 => ⟨S1x64x64, .f32⟩
  | 87 => ⟨S64x64, .f32⟩
  | 88 => ⟨S1x64, .f32⟩
  | 89 => ⟨S64, .f32⟩
  | 90 => ⟨S1x64x64, .f32⟩
  | 91 => ⟨S64x64, .f32⟩
  | 92 => ⟨S1x64x64, .f32⟩
  | 93 => ⟨S64x64, .f32⟩
  | 94 => ⟨S1x64, .f32⟩
  | 95 => ⟨S64, .f32⟩
  | 96 => ⟨S100000x64, .f32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x1, .f32⟩
  | 114 => ⟨S100000x64, .f32⟩
  | 115 => ⟨S100000x64, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x64, .f32⟩
  | 127 => ⟨S1600000x64, .f32⟩
  | _ => ⟨S100000x384, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S100000x1, .f32⟩
  | 5 => ⟨S100000x64, .f32⟩
  | 6 => ⟨S100000x64, .f32⟩
  | 7 => ⟨S1x64x64, .f32⟩
  | 8 => ⟨S64x64, .f32⟩
  | 9 => ⟨S1x64x64, .f32⟩
  | 10 => ⟨S64x64, .f32⟩
  | 11 => ⟨S1x64, .f32⟩
  | 12 => ⟨S64, .f32⟩
  | 13 => ⟨S1x64x64, .f32⟩
  | 14 => ⟨S64x64, .f32⟩
  | 15 => ⟨S1x64x64, .f32⟩
  | 16 => ⟨S64x64, .f32⟩
  | 17 => ⟨S1x64, .f32⟩
  | 18 => ⟨S64, .f32⟩
  | 19 => ⟨S100000x64, .f32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024x64, .f32⟩
  | 29 => ⟨S1024x64, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | .local _ .vmem, ⟨0, _⟩ => ⟨S5000x384, .f32⟩
  | .local _ .vmem, ⟨1, _⟩ => ⟨S5000x384, .f32⟩
  | .local _ .vmem, ⟨2, _⟩ => ⟨S384x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S64x64, .f32⟩
  | .local _ .vmem, ⟨28, _⟩ => ⟨S64, .f32⟩
  | .local _ .vmem, ⟨29, _⟩ => ⟨S64x64, .f32⟩
  | .local _ .vmem, ⟨30, _⟩ => ⟨S64x64, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | .local _ .vmem, ⟨34, _⟩ => ⟨S1024x64, .f32⟩
  | .local _ .vmem, ⟨35, _⟩ => ⟨S1024x64, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_cst_5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_6 : Ref sig .tc := ⟨.hbm, 35, rfl⟩
abbrev main_v13 : Ref sig .tc := ⟨.hbm, 36, rfl⟩
abbrev main_v14 : Ref sig .tc := ⟨.hbm, 37, rfl⟩
abbrev main_cst_7 : Ref sig .tc := ⟨.hbm, 38, rfl⟩
abbrev main_v15 : Ref sig .tc := ⟨.hbm, 39, rfl⟩
abbrev main_v16 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_9 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_10 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_11 : Ref sig .tc := ⟨.hbm, 66, rfl⟩
abbrev main_v36 : Ref sig .tc := ⟨.hbm, 67, rfl⟩
abbrev main_v37 : Ref sig .tc := ⟨.hbm, 68, rfl⟩
abbrev main_c_12 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_17 : Ref sig .tc := ⟨.hbm, 117, rfl⟩
abbrev main_v81 : Ref sig .tc := ⟨.hbm, 118, rfl⟩
abbrev main_v82 : Ref sig .tc := ⟨.hbm, 119, rfl⟩
abbrev main_c_18 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_20 : Ref sig .tc := ⟨.hbm, 148, rfl⟩
abbrev main_v109 : Ref sig .tc := ⟨.hbm, 149, rfl⟩
abbrev main_v110 : Ref sig .tc := ⟨.hbm, 150, rfl⟩
abbrev main_c_21 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg1_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc3_sem0_0 : DmaSem sig := 34
abbrev cc3_sem1_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  slices_S2x64x64_S1x64x64_1_0_0 : S2x64x64.Slices ![1, 0, 0] S1x64x64
  slices_S2x64_S1x64_1_0 : S2x64.Slices ![1, 0] S1x64
  bcast_S_S1024 : S_.BroadcastsInDim S1024 (![] : Fin 0 → Fin S1024.rank)
  bcast_S1024_S1024x1_0 : S1024.BroadcastsInDim S1024x1 (![0] : Fin 1 → Fin S1024x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  scatter_S100000_S1600000x1_S1600000_n_0_0_1_wf : ScatterDims.WF S100000 S1600000x1 S1600000 [] [0] [0] 1
  dot_S5000x384_S384x64_S5000x64_1_0_0_1_n_n_wf : DotDims.WF S5000x384 S384x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S100000x64_S1024x1_S1024x64_1_0_n_n_0_1_164_wf : GatherDims.WF S100000x64 S1024x1 S1024x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S100000x384.size a
  hwx0_0 : ∀ i : grid0.Coords, EltTy.bits .f32 = 32 ∨ (Rect.block (s := S100000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S100000x64.size a
  hwx2_9 : ∀ i : grid2.Coords, EltTy.bits .f32 = 32 ∨ (Rect.block (s := S100000x64) S5000x64.size (cc2_transform_9 i) (hinb2_9 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S1024x64.size a
  hwx3_1 : ∀ i : grid3.Coords, EltTy.bits .f32 = 32 ∨ (Rect.block (s := S1024x64) S1024x64.size (cc3_transform_1 i) (hinb3_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x384_S384x64_S5000x64_1_0_0_1_n_n : DotDims S5000x384 S384x64 S5000x64 where
  lhsContracting := [1]
  rhsContracting := [0]
  lhsNonContracting := [0]
  rhsNonContracting := [1]
  lhsBatch := []
  rhsBatch := []
  wf := dot_S5000x384_S384x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v63) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v97) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v101) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v103) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v105) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v107) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v108) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v115) S1024x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v116) S1024x64.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x384 : Shape := ⟨2, ![100000, 384]⟩
abbrev S1600000 : Shape := ⟨1, ![1600000]⟩
abbrev S384x64 : Shape := ⟨2, ![384, 64]⟩
abbrev S64 : Shape := ⟨1, ![64]⟩
abbrev S2x64x64 : Shape := ⟨3, ![2, 64, 64]⟩
abbrev S2x64 : Shape := ⟨2, ![2, 64]⟩
abbrev S1024 : Shape := ⟨1, ![1024]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1600000x64 : Shape := ⟨2, ![1600000, 64]⟩
abbrev S100000x1 : Shape := ⟨2, ![100000, 1]⟩
abbrev S1024x1 : Shape := ⟨2, ![1024, 1]⟩
abbrev S1024x64 : Shape := ⟨2, ![1024, 64]⟩

abbrev nBuf : Space → Nat
  | .hbm => 205
  | .vmem => 0
  | .smem => 0
  | _ => 0

abbrev hbmTy0_0 (i : Nat) : BufTy := match i % 128 with
  | 0 => ⟨S100000x384, .f32⟩
  | 1 => ⟨S1600000, .f32⟩
  | 2 => ⟨S384x64, .f32⟩
  | 3 => ⟨S64, .f32⟩
  | 4 => ⟨S2x64x64, .f32⟩
  | 5 => ⟨S2x64x64, .f32⟩
  | 6 => ⟨S2x64, .f32⟩
  | 7 => ⟨S2x64x64, .f32⟩
  | 8 => ⟨S2x64x64, .f32⟩
  | 9 => ⟨S2x64, .f32⟩
  | 10 => ⟨S1600000, .i32⟩
  | 11 => ⟨S1600000, .i32⟩
  | 12 => ⟨S1024, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x64, .f32⟩
  | 46 => ⟨S1x64, .f32⟩
  | 47 => ⟨S100000x64, .f32⟩
  | 48 => ⟨S100000x64, .f32⟩
  | 49 => ⟨S1x64x64, .f32⟩
  | 50 => ⟨S64x64, .f32⟩
  | 51 => ⟨S1x64x64, .f32⟩
  | 52 => ⟨S64x64, .f32⟩
  | 53 => ⟨S1x64, .f32⟩
  | 54 => ⟨S64, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x1, .f32⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S1x64x64, .f32⟩
  | 84 => ⟨S64x64, .f32⟩
  | 85 => ⟨S1x64x64, .f32⟩
  | 86 => ⟨S64x64, .f32⟩
  | 87 => ⟨S1x64, .f32⟩
  | 88 => ⟨S64, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000x1, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S1x64x64, .f32⟩
  | 120 => ⟨S64x64, .f32⟩
  | 121 => ⟨S1x64x64, .f32⟩
  | 122 => ⟨S64x64, .f32⟩
  | 123 => ⟨S1x64, .f32⟩
  | 124 => ⟨S64, .f32⟩
  | 125 => ⟨S1600000x1, .f32⟩
  | 126 => ⟨S_, .i32⟩
  | 127 => ⟨S1600000, .i32⟩
  | _ => ⟨S100000x384, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x64, .f32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S100000x1, .f32⟩
  | 14 => ⟨S100000x64, .f32⟩
  | 15 => ⟨S100000x64, .f32⟩
  | 16 => ⟨S100000x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S1x64x64, .f32⟩
  | 26 => ⟨S64x64, .f32⟩
  | 27 => ⟨S1x64x64, .f32⟩
  | 28 => ⟨S64x64, .f32⟩
  | 29 => ⟨S1x64, .f32⟩
  | 30 => ⟨S64, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x64, .f32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000x1, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S_, .i32⟩
  | 62 => ⟨S1024, .i32⟩
  | 63 => ⟨S1024, .i1⟩
  | 64 => ⟨S_, .i32⟩
  | 65 => ⟨S1024, .i32⟩
  | 66 => ⟨S1024, .i32⟩
  | 67 => ⟨S1024, .i32⟩
  | 68 => ⟨S1024x1, .i32⟩
  | 69 => ⟨S1024x64, .f32⟩
  | 70 => ⟨S1024x64, .f32⟩
  | 71 => ⟨S_, .f32⟩
  | 72 => ⟨S1024, .f32⟩
  | 73 => ⟨S1024x1, .f32⟩
  | 74 => ⟨S1024x1, .f32⟩
  | 75 => ⟨S1024x64, .f32⟩
  | 76 => ⟨S1024x64, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_cst_5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_6 : Ref sig .tc := ⟨.hbm, 35, rfl⟩
abbrev main_v13 : Ref sig .tc := ⟨.hbm, 36, rfl⟩
abbrev main_v14 : Ref sig .tc := ⟨.hbm, 37, rfl⟩
abbrev main_cst_7 : Ref sig .tc := ⟨.hbm, 38, rfl⟩
abbrev main_v15 : Ref sig .tc := ⟨.hbm, 39, rfl⟩
abbrev main_v16 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_v29 : Ref sig .tc := ⟨.hbm, 57, rfl⟩
abbrev main_v30 : Ref sig .tc := ⟨.hbm, 58, rfl⟩
abbrev main_c_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_c_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call3_cst : Ref sig .tc := ⟨.hbm, 114, rfl⟩
abbrev main_call3_v0 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_14 : Ref sig .tc := ⟨.hbm, 126, rfl⟩
abbrev main_v89 : Ref sig .tc := ⟨.hbm, 127, rfl⟩
abbrev main_v90 : Ref sig .tc := ⟨.hbm, 128, rfl⟩
abbrev main_c_15 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call4_cst : Ref sig .tc := ⟨.hbm, 150, rfl⟩
abbrev main_call4_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_17 : Ref sig .tc := ⟨.hbm, 160, rfl⟩
abbrev main_v118 : Ref sig .tc := ⟨.hbm, 161, rfl⟩
abbrev main_v119 : Ref sig .tc := ⟨.hbm, 162, rfl⟩
abbrev main_c_18 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_19 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_call5_cst : Ref sig .tc := ⟨.hbm, 184, rfl⟩
abbrev main_call5_v0 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_20 : Ref sig .tc := ⟨.hbm, 189, rfl⟩
abbrev main_v142 : Ref sig .tc := ⟨.hbm, 190, rfl⟩
abbrev main_v143 : Ref sig .tc := ⟨.hbm, 191, rfl⟩
abbrev main_c_21 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_call6_v0 : Ref sig .tc := ⟨.hbm, 198, rfl⟩
abbrev main_call6_cst : Ref sig .tc := ⟨.hbm, 199, rfl⟩
abbrev main_call6_v1 : Ref sig .tc := ⟨.hbm, 200, rfl⟩
abbrev main_call6_v2 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x64x64_S1x64x64_1_0_0 : S2x64x64.Slices ![1, 0, 0] S1x64x64
  slices_S2x64_S1x64_1_0 : S2x64.Slices ![1, 0] S1x64
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  h_S_ : 0 < S_.numel
  bcast_S1024x1_S1024x64_0_1 : S1024x1.BroadcastsInDim S1024x64 (![0, 1] : Fin 2 → Fin S1024x64.rank)
  scatter_S100000_S1600000x1_S1600000_n_0_0_1_wf : ScatterDims.WF S100000 S1600000x1 S1600000 [] [0] [0] 1
  dot_S100000x384_S384x64_S100000x64_1_0_0_1_n_n_wf : DotDims.WF S100000x384 S384x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S1024x1_S1024x64_1_0_n_n_0_1_164_wf : GatherDims.WF S100000x64 S1024x1 S1024x64 [1] [0] [] [0] [] 1 ![1, 64]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf

class Facts : Prop extends Facts₀ where

variable [Facts]
-- ==== Proof.KernelBoundary.lean ====
/-
  The idealized kernel's run, read at its end: on every core each buffer that lives for the whole program holds the
  contents of the last boundary of the fold through @main — the launch memory pushed through each stretch of host
  operations and, at each of the four kernel regions, the region's arrays replaced by what its write-backs leave.
  The result array and the argument arrays are among those buffers, so both the program's result and the frame are
  read off this one statement.
-/
import proofs.«177401_j14783277433090_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state each whole-program buffer of each core
    holds the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The result array ends at what the last region's write-backs leave in it. -/
theorem run_result : θ_run defs (onTc (τ := τ) (main (F := F))) ⟨m, fun _ => 0, ρ⟩ (fun r => ∀ c : Dev nD,
      r.2.mem ((c.tc : Thread nD τ).loc main_v116) = (dat3 (V10 m ρ) c).arrAt 1 cfg3.N
      ∧ ∀ b ∈ Pipeline.ucRefs τ sig, r.2.mem (((c : Thread nD τ)).1, b) = W11 m ρ c b) :=
  (θ_run defs _ _).mono (fun r h c => ⟨(h c _ (mem_uc main_v116 (by decide))).trans (W11_arr m ρ c 1), h c⟩) (run_boundary m ρ)

end Cert.KernelIdeal.Boundary

end
-- ==== Proof.HostGlue.lean ====
/-
  The host operations that both programs apply between the dense stages, each chain named as ONE function of the values
  that go in. Nothing here is ever opened: the two programs apply the same chains to values that are proved equal.

  • `invDeg idx`: the inverse degree vector — a scatter-add of ones along `idx`, then 1/deg where deg > 0 and 0 elsewhere.
  • `neigh x w g s inv`: the weighted neighbourhood mean — gather the rows of `x` along `g` (negative indices wrapped),
    scale row j by `w j`, scatter-add them along `s`, scale row i of the sums by `inv i`.
  • `wmat0` / `wmat1`, `bvec0` / `bvec1`: layer 0 / layer 1 of a stacked weight tensor or bias matrix.
  • `rowsOf x ids`: the rows of `x` picked by `ids` (negative indices wrapped).
-/
import proofs.«177401_j14783277433090_2_alg».proof.Proof.Gen.KernelIdeal
import Idealize.ShloMosaic.PureOps.Ideal

noncomputable section

namespace Cert.KernelIdeal.Glue

open Cert.KernelIdeal Cert.KernelIdeal.Facts₀ Cert.KernelIdeal.Facts Idealize.ShloMosaic

/-- Scatter-add of ones along `idx`: how many edges land on each node. -/
def deg (idx : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- 1/deg where deg > 0, else 0. -/
def invDeg (idx : IVec S1600000 32) : FVec Ideal S100000 .f32 :=
  select (cmpf (F := Ideal) .ogt (deg idx) (broadcastInDim S100000 ![] bcast_S_S100000 (constant S_ .f32 0x00000000#32)))
    (Host.divf (broadcastInDim S100000 ![] bcast_S_S100000 (constant S_ .f32 0x3F800000#32)) (deg idx))
    (broadcastInDim S100000 ![] bcast_S_S100000 (constant S_ .f32 0x00000000#32))

/-- An edge index with negative values wrapped by the node count. -/
def wrapE (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The weighted neighbourhood mean of the rows of `x`. -/
def neigh (x : FVec Ideal S100000x64 .f32) (w : FVec Ideal S1600000 .f32) (g s : IVec S1600000 32)
    (inv : FVec Ideal S100000 .f32) : FVec Ideal S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 s)
      (mulf
        (broadcastInDim S1600000x64 ![0, 1] bcast_S1600000x1_S1600000x64_0_1
          (broadcastInDim S1600000x1 ![0] bcast_S1600000_S1600000x1_0 w))
        (Host.gather gather_S100000x64_S1600000x1_S1600000x64_1_0_n_n_0_1_164 x
          (broadcastInDim S1600000x1 ![0] bcast_S1600000_S1600000x1_0 (wrapE g)))))
    (broadcastInDim S100000x64 ![0, 1] bcast_S100000x1_S100000x64_0_1
      (broadcastInDim S100000x1 ![0] bcast_S100000_S100000x1_0 inv))

/-- Layer 0 of a stacked [2, 64, 64] weight tensor. -/
def wmat0 (a : FVec Ideal S2x64x64 .f32) : FVec Ideal S64x64 .f32 :=
  shapeCast S64x64 (extractStridedSlice S1x64x64 ![0, 0, 0] a slices_S2x64x64_S1x64x64_0_0_0) shapeCasts_S1x64x64_S64x64

/-- Layer 1 of a stacked [2, 64, 64] weight tensor. -/
def wmat1 (a : FVec Ideal S2x64x64 .f32) : FVec Ideal S64x64 .f32 :=
  shapeCast S64x64 (extractStridedSlice S1x64x64 ![1, 0, 0] a slices_S2x64x64_S1x64x64_1_0_0) shapeCasts_S1x64x64_S64x64

/-- Layer 0 of a stacked [2, 64] bias matrix. -/
def bvec0 (a : FVec Ideal S2x64 .f32) : FVec Ideal S64 .f32 :=
  shapeCast S64 (extractStridedSlice S1x64 ![0, 0] a slices_S2x64_S1x64_0_0) shapeCasts_S1x64_S64

/-- Layer 1 of a stacked [2, 64] bias matrix. -/
def bvec1 (a : FVec Ideal S2x64 .f32) : FVec Ideal S64 .f32 :=
  shapeCast S64 (extractStridedSlice S1x64 ![1, 0] a slices_S2x64_S1x64_1_0) shapeCasts_S1x64_S64

/-- The rows of `x` picked by `ids`. -/
def rowsOf (x : FVec Ideal S100000x64 .f32) (ids : IVec S1024 32) : FVec Ideal S1024x64 .f32 :=
  Host.gather gather_S100000x64_S1024x1_S1024x64_1_0_n_n_0_1_164 x
    (broadcastInDim S1024x1 ![0] bcast_S1024_S1024x1_0
      (select (cmpi .slt ids (broadcastInDim S1024 ![] bcast_S_S1024 (constantI S_ 32 0#32)))
        (addi ids (broadcastInDim S1024 ![] bcast_S_S1024 (constantI S_ 32 100000#32))) ids))

end Cert.KernelIdeal.Glue

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.RealLaws.lean ====
/-
  The three facts about extended reals that join the two programs.

  • The skip connection adds the two activated branches to the features either as (x + f) + r or as x + (f + r):
    addition of extended reals is associative, infinities included.
  • A row is normalised either by multiplying with the reciprocal 1/s of its norm or by dividing by s. Division by a
    nonzero s is multiplication with s⁻¹, and 1/s is then s⁻¹ itself, so the two agree whenever s ≠ 0 — for finite
    and for infinite s alike. (At s = 0 they do not: 0 · (1/0) = 0 · ⊤ = 0 while 0/0 is the junk value ⊥; this is
    why the rows are required to have a nonzero norm.)
  • The float pattern of 1.0 denotes the extended real 1.
-/
import Idealize.ShloMosaic.PureOps.Ideal
import Idealize.ShloMosaic.Lib.ValueIdx

noncomputable section

namespace Cert.Sage

open Idealize.ShloMosaic Idealize.ShloMosaic.ValueIdx

/-- (x + f) + r = x + (f + r) on the extended reals. -/
theorem skip_regroup (x f r : EReal) : x + f + r = x + (f + r) := add_assoc x f r

/-- For s ≠ 0, multiplying with the reciprocal of s is dividing by s. -/
theorem mul_recip_eq_div (x s : EReal) (hs : s ≠ 0) : x * Ideal.div 1 s = Ideal.div x s := by
  unfold Ideal.div
  rw [if_neg hs, if_neg hs, one_mul]

/-- The f32 pattern 0x3F800000 is the number 1. -/
theorem one_f32 : Ideal.ofBits .f32 0x3F800000#32 = 1 := by
  simp [Ideal.ofBits, Ideal.ieee, -EReal.coe_mul]; norm_num

/-! ## The entry formulas -/

/-- One entry of the text encoder: row `r` of the text features times column `e` of the weights, plus the bias. -/
def encAt (T : (⟨2, ![100000, 384]⟩ : Shape).Idx → EReal) (W : (⟨2, ![384, 64]⟩ : Shape).Idx → EReal)
    (b : (⟨1, ![64]⟩ : Shape).Idx → EReal) (r : Fin 100000) (e : Fin 64) : EReal :=
  (∑ k : Fin 384, T (ix2 r k) * W (ix2 k e)) + b (ix1 e)

/-- One activated branch of a layer at an entry: the node's own features and its neighbourhood mean, each through its
    weight column, plus the bias, clamped below at `z` (the rectifier's zero). -/
def branchAt (x n : (⟨2, ![100000, 64]⟩ : Shape).Idx → EReal) (ws wn : (⟨2, ![64, 64]⟩ : Shape).Idx → EReal)
    (b : (⟨1, ![64]⟩ : Shape).Idx → EReal) (z : EReal) (r : Fin 100000) (e : Fin 64) : EReal :=
  max ((∑ k : Fin 64, x (ix2 r k) * ws (ix2 k e)) + (∑ k : Fin 64, n (ix2 r k) * wn (ix2 k e)) + b (ix1 e)) z

/-- One entry of a layer's output, as the kernel adds it up: the features plus the forward branch, then the reversed. -/
def layerAt (x nf nr : (⟨2, ![100000, 64]⟩ : Shape).Idx → EReal) (wsf wnf wsr wnr : (⟨2, ![64, 64]⟩ : Shape).Idx → EReal)
    (bf br : (⟨1, ![64]⟩ : Shape).Idx → EReal) (z : EReal) (r : Fin 100000) (e : Fin 64) : EReal :=
  x (ix2 r e) + branchAt x nf wsf wnf bf z r e + branchAt x nr wsr wnr br z r e

end Cert.Sage

end
-- ==== Proof.KernelPayloads.lean ====
/-
  What each kernel body computes, entry by entry, at the ideal values.

  • The text encoder stores, at row p and column e of its block, Σ_k T(p, k) · W(k, e) + b(e): a matrix product of the
    block's rows of text features with the whole weight matrix, into a zero accumulator, plus the bias row spread over
    the rows. (Rounding the operands to bf16 on the way into the product is the identity on extended reals.)
  • The layer body stores x(p, e) + max(Σ_k x(p,k)·Ws(k,e) + Σ_k n(p,k)·Wn(k,e) + b(e), 0), once for the forward
    neighbourhood means and once for the reversed ones, the two activated branches added to x one after the other.
  • The normalising body stores x(p, e) · (1 / √(Σ_k x(p,k)²)).
-/
import proofs.«177401_j14783277433090_2_alg».proof.Proof.Gen.KernelIdeal.Skeleton
import proofs.«177401_j14783277433090_2_alg».proof.Proof.LibPlainMatmul
import proofs.«177401_j14783277433090_2_alg».proof.Proof.LibKeepdims
import proofs.«177401_j14783277433090_2_alg».proof.Proof.RealLaws
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A bias vector [b] laid as the row [1, b] and spread over a rows reads, at (p, e), the vector at e. -/
theorem biasRows_apply {a b : ℕ} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (e : Fin b) :
    broadcastTo ⟨2, ![a, b]⟩ (shapeCast ⟨2, ![1, b]⟩ v h1) h2 (ix2 p e) = v (ix1 e) :=
  (broadcastTo_1b_ab_apply _ h2 p e).trans (shapeCast_a_1a_apply v h1 0 e)

/-- The encoder's stored value at (p, e). -/
theorem enc_pay_apply (v0 : Vec Ideal S5000x384 .f32) (v2 : Vec Ideal S384x64 .f32) (v5 : Vec Ideal S64 .f32)
    (p : Fin 5000) (e : Fin 64) :
    k0_pay1 (F := Ideal) v0 v2 v5 (ix2 p e) = (∑ k : Fin 384, v0 (ix2 p k) * v2 (ix2 k e)) + v5 (ix1 e) := by
  have hm : FloatOps.matmul (F := Ideal) (DotDims.plain 5000 384 64) none (truncf (F := Ideal) .bf16 v0 bitsLt_bf16_f32)
      (truncf (F := Ideal) .bf16 v2 bitsLt_bf16_f32) (constant ⟨2, ![5000, 64]⟩ .f32 0x00000000#32) (ix2 p e)
      = ∑ k : Fin 384, v0 (ix2 p k) * v2 (ix2 k e) :=
    matmul_plain_zero_apply 5000 384 64 none _ _ p e
  have hb := biasRows_apply (a := 5000) (b := 64) v5 shapeCasts_S64_S1x64 broadcasts_S1x64_S5000x64 p e
  exact congrArg₂ (· + ·) hm hb

/-- A block's 64 columns against a 64 × 64 weight matrix, both rounded to bf16 on the way in, at (p, e). -/
theorem mm64_apply (a : FVec Ideal S5000x64 .f32) (w : FVec Ideal S64x64 .f32) (p : Fin 5000) (e : Fin 64) :
    FloatOps.matmul (F := Ideal) dot_S5000x64_S64x64_S5000x64_1_0_0_1_n_n none (truncf (F := Ideal) .bf16 a bitsLt_bf16_f32)
      (truncf (F := Ideal) .bf16 w bitsLt_bf16_f32) (constant S5000x64 .f32 0x00000000#32) (ix2 p e)
      = ∑ k : Fin 64, a (ix2 p k) * w (ix2 k e) :=
  matmul_plain_zero_apply 5000 64 64 none _ _ p e

/-- One activated branch of the layer body at (p, e): the two products, the bias row, the clamp at the rectifier's zero. -/
def blockBranch (x n : FVec Ideal S5000x64 .f32) (ws wn : FVec Ideal S64x64 .f32) (b : FVec Ideal S64 .f32)
    (p : Fin 5000) (e : Fin 64) : EReal :=
  max ((∑ k : Fin 64, x (ix2 p k) * ws (ix2 k e)) + (∑ k : Fin 64, n (ix2 p k) * wn (ix2 k e)) + b (ix1 e))
    (Scalar.ofBits (F := Ideal) .f32 0x00000000#32)

/-- The layer body's stored value at (p, e): the block's own entry plus the forward branch, then plus the reversed one.
    Stated for the first layer's body; the second layer's body is the same text under other names. -/
theorem layer1_pay_apply (v0 v2 v4 : Vec Ideal S5000x64 .f32) (v9 v12 v15 v18 : Vec Ideal S64x64 .f32)
    (v24 v34 : Vec Ideal S64 .f32) (p : Fin 5000) (e : Fin 64) :
    k1_pay1 (F := Ideal) (k1_pay2 v0) (k1_pay4 v0 v2 v9 v12 v24) (k1_pay5 v0 v4 v15 v18) (k1_pay6 v34) (ix2 p e)
      = v0 (ix2 p e) + blockBranch v0 v2 v9 v12 v24 p e + blockBranch v0 v4 v15 v18 v34 p e := by
  have c0 : shapeCast S5000x64 v0 shapeCasts_S5000x64_S5000x64 = v0 := shapeCast_self v0 _
  have c2 : shapeCast S5000x64 v2 shapeCasts_S5000x64_S5000x64 = v2 := shapeCast_self v2 _
  have c4 : shapeCast S5000x64 v4 shapeCasts_S5000x64_S5000x64 = v4 := shapeCast_self v4 _
  have c9 : shapeCast S64x64 v9 shapeCasts_S64x64_S64x64 = v9 := shapeCast_self v9 _
  have c12 : shapeCast S64x64 v12 shapeCasts_S64x64_S64x64 = v12 := shapeCast_self v12 _
  have c15 : shapeCast S64x64 v15 shapeCasts_S64x64_S64x64 = v15 := shapeCast_self v15 _
  have c18 : shapeCast S64x64 v18 shapeCasts_S64x64_S64x64 = v18 := shapeCast_self v18 _
  have c24 : shapeCast S64 v24 shapeCasts_S64_S64 = v24 := shapeCast_self v24 _
  have c34 : shapeCast S64 v34 shapeCasts_S64_S64 = v34 := shapeCast_self v34 _
  unfold k1_pay1 k1_pay4 k1_pay5 k1_pay6 k1_pay3 k1_pay2
  simp only [c0, c2, c4, c9, c12, c15, c18, c24, c34]
  show (v0 (ix2 p e) + max
        ((FloatOps.matmul (F := Ideal) dot_S5000x64_S64x64_S5000x64_1_0_0_1_n_n none (truncf (F := Ideal) .bf16 v0 bitsLt_bf16_f32)
            (truncf (F := Ideal) .bf16 v9 bitsLt_bf16_f32) (constant S5000x64 .f32 0x00000000#32) (ix2 p e)
          + FloatOps.matmul (F := Ideal) dot_S5000x64_S64x64_S5000x64_1_0_0_1_n_n none (truncf (F := Ideal) .bf16 v2 bitsLt_bf16_f32)
            (truncf (F := Ideal) .bf16 v12 bitsLt_bf16_f32) (constant S5000x64 .f32 0x00000000#32) (ix2 p e))
          + broadcastTo S5000x64 (shapeCast S1x64 v24 shapeCasts_S64_S1x64) broadcasts_S1x64_S5000x64 (ix2 p e))
        (Scalar.ofBits (F := Ideal) .f32 0x00000000#32))
      + max
        ((FloatOps.matmul (F := Ideal) dot_S5000x64_S64x64_S5000x64_1_0_0_1_n_n none (truncf (F := Ideal) .bf16 v0 bitsLt_bf16_f32)
            (truncf (F := Ideal) .bf16 v15 bitsLt_bf16_f32) (constant S5000x64 .f32 0x00000000#32) (ix2 p e)
          + FloatOps.matmul (F := Ideal) dot_S5000x64_S64x64_S5000x64_1_0_0_1_n_n none (truncf (F := Ideal) .bf16 v4 bitsLt_bf16_f32)
            (truncf (F := Ideal) .bf16 v18 bitsLt_bf16_f32) (constant S5000x64 .f32 0x00000000#32) (ix2 p e))
          + broadcastTo S5000x64 (shapeCast S1x64 v34 shapeCasts_S64_S1x64) broadcasts_S1x64_S5000x64 (ix2 p e))
        (Scalar.ofBits (F := Ideal) .f32 0x00000000#32) = _
  rw [mm64_apply, mm64_apply, mm64_apply, mm64_apply,
    biasRows_apply (a := 5000) (b := 64) v24 shapeCasts_S64_S1x64 broadcasts_S1x64_S5000x64 p e,
    biasRows_apply (a := 5000) (b := 64) v34 shapeCasts_S64_S1x64 broadcasts_S1x64_S5000x64 p e]
  rfl

/-- The second layer's body stores the same value of its own blocks. -/
theorem layer2_pay_apply (v0 v2 v4 : Vec Ideal S5000x64 .f32) (v9 v12 v15 v18 : Vec Ideal S64x64 .f32)
    (v24 v34 : Vec Ideal S64 .f32) (p : Fin 5000) (e : Fin 64) :
    k2_pay1 (F := Ideal) (k2_pay2 v0) (k2_pay4 v0 v2 v9 v12 v24) (k2_pay5 v0 v4 v15 v18) (k2_pay6 v34) (ix2 p e)
      = v0 (ix2 p e) + blockBranch v0 v2 v9 v12 v24 p e + blockBranch v0 v4 v15 v18 v34 p e := by
  have c0 : shapeCast S5000x64 v0 shapeCasts_S5000x64_S5000x64 = v0 := shapeCast_self v0 _
  have c2 : shapeCast S5000x64 v2 shapeCasts_S5000x64_S5000x64 = v2 := shapeCast_self v2 _
  have c4 : shapeCast S5000x64 v4 shapeCasts_S5000x64_S5000x64 = v4 := shapeCast_self v4 _
  have c9 : shapeCast S64x64 v9 shapeCasts_S64x64_S64x64 = v9 := shapeCast_self v9 _
  have c12 : shapeCast S64x64 v12 shapeCasts_S64x64_S64x64 = v12 := shapeCast_self v12 _
  have c15 : shapeCast S64x64 v15 shapeCasts_S64x64_S64x64 = v15 := shapeCast_self v15 _
  have c18 : shapeCast S64x64 v18 shapeCasts_S64x64_S64x64 = v18 := shapeCast_self v18 _
  have c24 : shapeCast S64 v24 shapeCasts_S64_S64 = v24 := shapeCast_self v24 _
  have c34 : shapeCast S64 v34 shapeCasts_S64_S64 = v34 := shapeCast_self v34 _
  unfold k2_pay1 k2_pay4 k2_pay5 k2_pay6 k2_pay3 k2_pay2
  simp only [c0, c2, c4, c9, c12, c15, c18, c24, c34]
  show (v0 (ix2 p e) + max
        ((FloatOps.matmul (F := Ideal) dot_S5000x64_S64x64_S5000x64_1_0_0_1_n_n none (truncf (F := Ideal) .bf16 v0 bitsLt_bf16_f32)
            (truncf (F := Ideal) .bf16 v9 bitsLt_bf16_f32) (constant S5000x64 .f32 0x00000000#32) (ix2 p e)
          + FloatOps.matmul (F := Ideal) dot_S5000x64_S64x64_S5000x64_1_0_0_1_n_n none (truncf (F := Ideal) .bf16 v2 bitsLt_bf16_f32)
            (truncf (F := Ideal) .bf16 v12 bitsLt_bf16_f32) (constant S5000x64 .f32 0x00000000#32) (ix2 p e))
          + broadcastTo S5000x64 (shapeCast S1x64 v24 shapeCasts_S64_S1x64) broadcasts_S1x64_S5000x64 (ix2 p e))
        (Scalar.ofBits (F := Ideal) .f32 0x00000000#32))
      + max
        ((FloatOps.matmul (F := Ideal) dot_S5000x64_S64x64_S5000x64_1_0_0_1_n_n none (truncf (F := Ideal) .bf16 v0 bitsLt_bf16_f32)
            (truncf (F := Ideal) .bf16 v15 bitsLt_bf16_f32) (constant S5000x64 .f32 0x00000000#32) (ix2 p e)
          + FloatOps.matmul (F := Ideal) dot_S5000x64_S64x64_S5000x64_1_0_0_1_n_n none (truncf (F := Ideal) .bf16 v4 bitsLt_bf16_f32)
            (truncf (F := Ideal) .bf16 v18 bitsLt_bf16_f32) (constant S5000x64 .f32 0x00000000#32) (ix2 p e))
          + broadcastTo S5000x64 (shapeCast S1x64 v34 shapeCasts_S64_S1x64) broadcasts_S1x64_S5000x64 (ix2 p e))
        (Scalar.ofBits (F := Ideal) .f32 0x00000000#32) = _
  rw [mm64_apply, mm64_apply, mm64_apply, mm64_apply,
    biasRows_apply (a := 5000) (b := 64) v24 shapeCasts_S64_S1x64 broadcasts_S1x64_S5000x64 p e,
    biasRows_apply (a := 5000) (b := 64) v34 shapeCasts_S64_S1x64 broadcasts_S1x64_S5000x64 p e]
  rfl

/-- The normalising body's stored value at (p, e): the entry times the reciprocal of its row's root sum of squares. -/
theorem norm_pay_apply (v0 : Vec Ideal S1024x64 .f32) (p : Fin 1024) (e : Fin 64) :
    k3_pay1 (F := Ideal) v0 (ix2 p e)
      = v0 (ix2 p e) * Ideal.div 1 (Ideal.sqrt (∑ k : Fin 64, v0 (ix2 p k) * v0 (ix2 p k))) := by
  have c0 : shapeCast S1024x64 v0 shapeCasts_S1024x64_S1024x64 = v0 := shapeCast_self v0 _
  unfold k3_pay1
  simp only [c0]
  show v0 (ix2 p e) * broadcastTo S1024x64
      (divf (F := Ideal) (broadcast S1024x1 (Scalar.ofBits (F := Ideal) .f32 0x3F800000#32))
        (sqrt (F := Ideal) (shapeCast S1024x1 (multiReduction (F := Ideal) .add [1] S1024 (mulf (F := Ideal) v0 v0) 0x00000000#32 reduces_S1024x64_S1024 (.inl rfl) rfl)
          shapeCasts_S1024_S1024x1)))
      broadcasts_S1024x1_S1024x64 (ix2 p e) = _
  rw [Cert.LibKeepdims.broadcastTo_a1_ab_apply (a := 1024) (b := 64) _ broadcasts_S1024x1_S1024x64 p e 0]
  show v0 (ix2 p e) * Ideal.div (Scalar.ofBits (F := Ideal) .f32 0x3F800000#32)
      (Ideal.sqrt (shapeCast S1024x1 (multiReduction (F := Ideal) .add [1] S1024 (mulf (F := Ideal) v0 v0) 0x00000000#32 reduces_S1024x64_S1024 (.inl rfl) rfl)
          shapeCasts_S1024_S1024x1 (ix2 p 0))) = _
  rw [Cert.LibKeepdims.shapeCast_a_a1_apply (a := 1024) _ shapeCasts_S1024_S1024x1 p 0,
    Cert.LibKeepdims.multiReduction_add_lastAxis_apply (a := 1024) (b := 64) (mulf (F := Ideal) v0 v0) 0x00000000#32 reduces_S1024x64_S1024 (.inl rfl) rfl p]
  show v0 (ix2 p e) * Ideal.div (Ideal.ofBits .f32 0x3F800000#32) (Ideal.sqrt (∑ k : Fin 64, v0 (ix2 p k) * v0 (ix2 p k))) = _
  rw [Cert.Sage.one_f32]

end Cert.KernelIdeal.Pay

end
-- ==== Proof.EncoderArray.lean ====
/-
  The text encoder's region, read as one array.

  The grid has 20 points; point t stages rows 5000·t … 5000·t + 4999 of the text features (all 384 columns), the whole
  weight matrix and the whole bias, and writes back rows 5000·t … 5000·t + 4999 of the result. So what point t writes
  back is block t of ONE function of the arrays as the region finds them — entry (r, e) is Σ_k T(r, k)·W(k, e) + b(e) —
  and the 20 blocks cover all 100000 rows: the result array ends holding that function.
-/
import proofs.«177401_j14783277433090_2_alg».proof.Proof.Gen.KernelIdeal.Frame
import proofs.«177401_j14783277433090_2_alg».proof.Proof.KernelPayloads

set_option maxRecDepth 16384

noncomputable section

namespace Cert.KernelIdeal.Enc

open Cert.KernelIdeal Cert.KernelIdeal.Gen Cert.KernelIdeal.Pay Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The encoder's result as one array function of the three arrays it reads. -/
def encArr (T : S100000x384.Idx → EReal) (W : S384x64.Idx → EReal) (b : S64.Idx → EReal) : S100000x64.Idx → EReal :=
  fun i => Cert.Sage.encAt T W b ⟨(i 0).val, idx2_lt0 i⟩ ⟨(i 1).val, idx2_lt1 i⟩

theorem encArr_ix2 (T : S100000x384.Idx → EReal) (W : S384x64.Idx → EReal) (b : S64.Idx → EReal) (r : Fin 100000) (e : Fin 64) :
    encArr T W b (ix2 r e) = Cert.Sage.encAt T W b r e := rfl

/-- The printed index maps over the grid: the text block and the result block move together down the rows, every other
    block index is 0, and the row-block index stays below 20. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 19 :=
  (by decide +kernel : ∀ t : Fin grid0.N, _)

/-- Every row block is some point's. -/
theorem idx_onto : ∀ q : Fin 20, ∃ t : Fin cfg0.N, win0_3.index t = ![q.val, 0] :=
  (by decide +kernel : ∀ q : Fin 20, ∃ t : Fin grid0.N, win0_3.index t = ![q.val, 0])

/-- What point t writes back is block t of the encoder's array function. -/
theorem flushed_eq (c : Dev nD) (t : Fin cfg0.N) :
    (dat0 V c).flushed 3 t = ((cfg0.win 3).blk t).view.read (Elt Ideal) (encArr (V c main_arg0) (V c main_arg2) (V c main_arg3)) := by
  show (cfg0.win 3).cut (grid0.coords t) ((dat0 V c).after 3 t) = _
  rw [after0_3]
  unfold out0_3
  rw [View.canon_unit_zero off2]
  simp only [View.ld_unit_zero (S := S5000x384) off2, View.ld_unit_zero (S := S384x64) off2, View.ld_unit_zero (S := S64) off1]
  obtain ⟨e0, e1, e2, e3, e4, e5, e6⟩ := idx_facts t
  funext j
  obtain ⟨p, e, rfl⟩ : ∃ (p : Fin 5000) (e : Fin 64), j = ix2 p e := ⟨j 0, j 1, eq_ix2 j⟩
  have hR : win0_3.index t (0 : Fin 2) * 5000 + 1 * p.val < 100000 := by have := p.isLt; omega
  show k0_pay1 (F := Ideal) (iblk0 V c 0 t) (iblk0 V c 1 t) (iblk0 V c 2 t) (ix2 p e)
    = encArr (V c main_arg0) (V c main_arg2) (V c main_arg3) (((cfg0.win 3).blk t).view.emb (ix2 p e))
  refine (enc_pay_apply (iblk0 V c 0 t) (iblk0 V c 1 t) (iblk0 V c 2 t) p e).trans ?_
  have hout : ((cfg0.win 3).blk t).view.emb (ix2 p e) = ix2 (⟨_, hR⟩ : Fin 100000) e := by
    funext a; apply Fin.ext
    match a with
    | ⟨0, _⟩ => rfl
    | ⟨1, _⟩ => show win0_3.index t (1 : Fin 2) * 64 + 1 * e.val = e.val; omega
  rw [hout, encArr_ix2]
  unfold Cert.Sage.encAt
  have h0 : ∀ k : Fin 384, iblk0 V c 0 t (ix2 p k) = V c main_arg0 (ix2 (⟨_, hR⟩ : Fin 100000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 384 + 1 * k.val = k.val; omega
  have h1 : ∀ k : Fin 384, iblk0 V c 1 t (ix2 k e) = V c main_arg2 (ix2 k e) := fun k => by
    show V c main_arg2 (((cfg0.win 1).blk t).view.emb (ix2 k e)) = _
    refine congrArg (V c main_arg2) ?_
    funext a; apply Fin.ext
    match a with
    | ⟨0, _⟩ => show win0_1.index t (0 : Fin 2) * 384 + 1 * k.val = k.val; omega
    | ⟨1, _⟩ => show win0_1.index t (1 : Fin 2) * 64 + 1 * e.val = e.val; omega
  have h2 : iblk0 V c 2 t (ix1 e) = V c main_arg3 (ix1 e) := by
    show V c main_arg3 (((cfg0.win 2).blk t).view.emb (ix1 e)) = _
    refine congrArg (V c main_arg3) ?_
    funext a; apply Fin.ext
    match a with
    | ⟨0, _⟩ => show win0_2.index t (0 : Fin 1) * 64 + 1 * e.val = e.val; omega
  rw [h2]
  exact congrArg (· + V c main_arg3 (ix1 e)) (Finset.sum_congr rfl fun k _ => by rw [h0 k, h1 k])

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- Every index of the result array is in some point's block: row r is in block r / 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the region: the encoder's function of the arrays as the region finds them. -/
theorem final (c : Dev nD) :
    (dat0 V c).arrAt 3 cfg0.N = encArr (V c main_arg0) (V c main_arg2) (V c main_arg3) :=
  (dat0 V c).arrAt_eq_of_cover 3 _ (fun t _ => flushed_eq V c t) covered

end Cert.KernelIdeal.Enc

end
-- ==== Proof.Layer1Array.lean ====
/-
  The first layer's region, read as one array.

  The grid has 20 points; point t stages rows 5000·t … 5000·t + 4999 of the node features and of the two neighbourhood
  means, the four 64 × 64 weight matrices and the two bias vectors whole, and writes back the same rows of the result.
  What point t writes back is block t of ONE function of the arrays as the region finds them — entry (r, e) is
  x(r, e) plus the forward branch plus the reversed branch, each branch max(Σ_k x(r,k)·Ws(k,e) + Σ_k n(r,k)·Wn(k,e) + b(e), 0) —
  and the 20 blocks cover all 100000 rows.
-/
import proofs.«177401_j14783277433090_2_alg».proof.Proof.Gen.KernelIdeal.Frame
import proofs.«177401_j14783277433090_2_alg».proof.Proof.KernelPayloads

set_option maxRecDepth 16384

noncomputable section

namespace Cert.KernelIdeal.Layer1

open Cert.KernelIdeal Cert.KernelIdeal.Gen Cert.KernelIdeal.Pay Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The layer's result as one array function of the nine arrays it reads. -/
def layerArr (x nf nr : S100000x64.Idx → EReal) (wsf wnf wsr wnr : S64x64.Idx → EReal) (bf br : S64.Idx → EReal) :
    S100000x64.Idx → EReal :=
  fun i => Cert.Sage.layerAt x nf nr wsf wnf wsr wnr bf br (Scalar.ofBits (F := Ideal) .f32 0x00000000#32)
    ⟨(i 0).val, idx2_lt0 i⟩ ⟨(i 1).val, idx2_lt1 i⟩

theorem layerArr_ix2 (x nf nr : S100000x64.Idx → EReal) (wsf wnf wsr wnr : S64x64.Idx → EReal) (bf br : S64.Idx → EReal)
    (r : Fin 100000) (e : Fin 64) :
    layerArr x nf nr wsf wnf wsr wnr bf br (ix2 r e)
      = Cert.Sage.layerAt x nf nr wsf wnf wsr wnr bf br (Scalar.ofBits (F := Ideal) .f32 0x00000000#32) r e := rfl

/-- The printed index maps over the grid: the three row-blocked inputs move with the result block down the rows, every
    other block index is 0, and the row-block index stays below 20. -/
theorem idx_facts : ∀ t : Fin cfg1.N, win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 1) = 0
    ∧ win1_9.index t (1 : Fin 2) = 0 ∧ win1_9.index t (0 : Fin 2) ≤ 19 :=
  (by decide +kernel : ∀ t : Fin grid1.N, _)

/-- Every row block is some point's. -/
theorem idx_onto : ∀ q : Fin 20, ∃ t : Fin cfg1.N, win1_9.index t = ![q.val, 0] :=
  (by decide +kernel : ∀ q : Fin 20, ∃ t : Fin grid1.N, win1_9.index t = ![q.val, 0])

/-- What point t writes back is block t of the layer's array function. -/
theorem flushed_eq (c : Dev nD) (t : Fin cfg1.N) :
    (dat1 V c).flushed 9 t = ((cfg1.win 9).blk t).view.read (Elt Ideal)
      (layerArr (V c main_v18) (V c main_v34) (V c main_v50) (V c main_v52) (V c main_v54) (V c main_v58) (V c main_v60) (V c main_v56) (V c main_v62)) := by
  show (cfg1.win 9).cut (grid1.coords t) ((dat1 V c).after 9 t) = _
  rw [after1_9]
  unfold out1_9
  rw [View.canon_unit_zero off2]
  simp only [View.ld_unit_zero (S := S5000x64) off2, View.ld_unit_zero (S := S64x64) off2, View.ld_unit_zero (S := S64) off1]
  obtain ⟨e00, e01, e10, e11, e20, e21, e30, e31, e40, e41, e50, e60, e61, e70, e71, e80, e91, e9b⟩ := idx_facts t
  funext j
  obtain ⟨p, e, rfl⟩ : ∃ (p : Fin 5000) (e : Fin 64), j = ix2 p e := ⟨j 0, j 1, eq_ix2 j⟩
  have hR : win1_9.index t (0 : Fin 2) * 5000 + 1 * p.val < 100000 := by have := p.isLt; omega
  show k1_pay1 (F := Ideal) (k1_pay2 (iblk1 V c 0 t)) (k1_pay4 (iblk1 V c 0 t) (iblk1 V c 1 t) (iblk1 V c 3 t) (iblk1 V c 4 t) (iblk1 V c 5 t))
      (k1_pay5 (iblk1 V c 0 t) (iblk1 V c 2 t) (iblk1 V c 6 t) (iblk1 V c 7 t)) (k1_pay6 (iblk1 V c 8 t)) (ix2 p e)
    = layerArr (V c main_v18) (V c main_v34) (V c main_v50) (V c main_v52) (V c main_v54) (V c main_v58) (V c main_v60) (V c main_v56) (V c main_v62)
        (((cfg1.win 9).blk t).view.emb (ix2 p e))
  refine (layer1_pay_apply (iblk1 V c 0 t) (iblk1 V c 1 t) (iblk1 V c 2 t) (iblk1 V c 3 t) (iblk1 V c 4 t) (iblk1 V c 6 t) (iblk1 V c 7 t)
    (iblk1 V c 5 t) (iblk1 V c 8 t) p e).trans ?_
  have hout : ((cfg1.win 9).blk t).view.emb (ix2 p e) = ix2 (⟨_, hR⟩ : Fin 100000) e := by
    funext a; apply Fin.ext
    match a with
    | ⟨0, _⟩ => rfl
    | ⟨1, _⟩ => show win1_9.index t (1 : Fin 2) * 64 + 1 * e.val = e.val; omega
  rw [hout, layerArr_ix2]
  unfold Cert.Sage.layerAt Cert.Sage.branchAt blockBranch
  have hx : ∀ k : Fin 64, iblk1 V c 0 t (ix2 p k) = V c main_v18 (ix2 (⟨_, hR⟩ : Fin 100000) k) := fun k => by
    show V c main_v18 (((cfg1.win 0).blk t).view.emb (ix2 p k)) = _
    refine congrArg (V c main_v18) ?_
    funext a; apply Fin.ext
    match a with
    | ⟨0, _⟩ => show win1_0.index t (0 : Fin 2) * 5000 + 1 * p.val = win1_9.index t (0 : Fin 2) * 5000 + 1 * p.val; omega
    | ⟨1, _⟩ => show win1_0.index t (1 : Fin 2) * 64 + 1 * k.val = k.val; omega
  have hnf : ∀ k : Fin 64, iblk1 V c 1 t (ix2 p k) = V c main_v34 (ix2 (⟨_, hR⟩ : Fin 100000) k) := fun k => by
    show V c main_v34 (((cfg1.win 1).blk t).view.emb (ix2 p k)) = _
    refine congrArg (V c main_v34) ?_
    funext a; apply Fin.ext
    match a with
    | ⟨0, _⟩ => show win1_1.index t (0 : Fin 2) * 5000 + 1 * p.val = win1_9.index t (0 : Fin 2) * 5000 + 1 * p.val; omega
    | ⟨1, _⟩ => show win1_1.index t (1 : Fin 2) * 64 + 1 * k.val = k.val; omega
  have hnr : ∀ k : Fin 64, iblk1 V c 2 t (ix2 p k) = V c main_v50 (ix2 (⟨_, hR⟩ : Fin 100000) k) := fun k => by
    show V c main_v50 (((cfg1.win 2).blk t).view.emb (ix2 p k)) = _
    refine congrArg (V c main_v50) ?_
    funext a; apply Fin.ext
    match a with
    | ⟨0, _⟩ => show win1_2.index t (0 : Fin 2) * 5000 + 1 * p.val = win1_9.index t (0 : Fin 2) * 5000 + 1 * p.val; omega
    | ⟨1, _⟩ => show win1_2.index t (1 : Fin 2) * 64 + 1 * k.val = k.val; omega
  have hwsf : ∀ k : Fin 64, iblk1 V c 3 t (ix2 k e) = V c main_v52 (ix2 k e) := fun k => by
    show V c main_v52 (((cfg1.win 3).blk t).view.emb (ix2 k e)) = _
    refine congrArg (V c main_v52) ?_
    funext a; apply Fin.ext
    match a with
    | ⟨0, _⟩ => show win1_3.index t (0 : Fin 2) * 64 + 1 * k.val = k.val; omega
    | ⟨1, _⟩ => show win1_3.index t (1 : Fin 2) * 64 + 1 * e.val = e.val; omega
  have hwnf : ∀ k : Fin 64, iblk1 V c 4 t (ix2 k e) = V c main_v54 (ix2 k e) := fun k => by
    show V c main_v54 (((cfg1.win 4).blk t).view.emb (ix2 k e)) = _
    refine congrArg (V c main_v54) ?_
    funext a; apply Fin.ext
    match a with
    | ⟨0, _⟩ => show win1_4.index t (0 : Fin 2) * 64 + 1 * k.val = k.val; omega
    | ⟨1, _⟩ => show win1_4.index t (1 : Fin 2) * 64 + 1 * e.val = e.val; omega
  have hwsr : ∀ k : Fin 64, iblk1 V c 6 t (ix2 k e) = V c main_v58 (ix2 k e) := fun k => by
    show V c main_v58 (((cfg1.win 6).blk t).view.emb (ix2 k e)) = _
    refine congrArg (V c main_v58) ?_
    funext a; apply Fin.ext
    match a with
    | ⟨0, _⟩ => show win1_6.index t (0 : Fin 2) * 64 + 1 * k.val = k.val; omega
    | ⟨1, _⟩ => show win1_6.index t (1 : Fin 2) * 64 + 1 * e.val = e.val; omega
  have hwnr : ∀ k : Fin 64, iblk1 V c 7 t (ix2 k e) = V c main_v60 (ix2 k e) := fun k => by
    show V c main_v60 (((cfg1.win 7).blk t).view.emb (ix2 k e)) = _
    refine congrArg (V c main_v60) ?_
    funext a; apply Fin.ext
    match a with
    | ⟨0, _⟩ => show win1_7.index t (0 : Fin 2) * 64 + 1 * k.val = k.val; omega
    | ⟨1, _⟩ => show win1_7.index t (1 : Fin 2) * 64 + 1 * e.val = e.val; omega
  have hbf : iblk1 V c 5 t (ix1 e) = V c main_v56 (ix1 e) := by
    show V c main_v56 (((cfg1.win 5).blk t).view.emb (ix1 e)) = _
    refine congrArg (V c main_v56) ?_
    funext a; apply Fin.ext
    match a with
    | ⟨0, _⟩ => show win1_5.index t (0 : Fin 1) * 64 + 1 * e.val = e.val; omega
  have hbr : iblk1 V c 8 t (ix1 e) = V c main_v62 (ix1 e) := by
    show V c main_v62 (((cfg1.win 8).blk t).view.emb (ix1 e)) = _
    refine congrArg (V c main_v62) ?_
    funext a; apply Fin.ext
    match a with
    | ⟨0, _⟩ => show win1_8.index t (0 : Fin 1) * 64 + 1 * e.val = e.val; omega
  have hxe : iblk1 V c 0 t (ix2 p e) = V c main_v18 (ix2 (⟨_, hR⟩ : Fin 100000) e) := hx e
  rw [hxe, hbf, hbr]
  simp only [hx, hnf, hnr, hwsf, hwnf, hwsr, hwnr]

/-- An index of the result array is in point t's block iff each coordinate is in the block's range on its axis. -/
theorem mem_blk (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v63).slice (win1_9.rect t)).set ↔ _
  rw [View.set_slice_whole, Rect.mem_set_unit]
  exact Iff.rfl

/-- Every index of the result array is in some point's block: row r is in block r / 5000. -/
theorem covered (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ := idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- The result array after the region: the layer's function of the arrays as the region finds them. -/
theorem final (c : Dev nD) :
    (dat1 V c).arrAt 9 cfg1.N
      = layerArr (V c main_v18) (V c main_v34) (V c main_v50) (V c main_v52) (V c main_v54) (V c main_v58) (V c main_v60) (V c main_v56) (V c main_v62) :=
  (dat1 V c).arrAt_eq_of_cover 9 _ (fun t _ => flushed_eq V c t) covered

end Cert.KernelIdeal.Layer1

end
-- ==== Proof.Layer2Array.lean ====
/-
  The second layer's region, read as one array.

  The grid has 20 points; point t stages rows 5000·t … 5000·t + 4999 of the node features and of the two neighbourhood
  means, the four 64 × 64 weight matrices and the two bias vectors whole, and writes back the same rows of the result.
  What point t writes back is block t of ONE function of the arrays as the region finds them — entry (r, e) is
  x(r, e) plus the forward branch plus the reversed branch, each branch max(Σ_k x(r,k)·Ws(k,e) + Σ_k n(r,k)·Wn(k,e) + b(e), 0) —
  and the 20 blocks cover all 100000 rows.
-/
import proofs.«177401_j14783277433090_2_alg».proof.Proof.Gen.KernelIdeal.Frame
import proofs.«177401_j14783277433090_2_alg».proof.Proof.KernelPayloads

set_option maxRecDepth 16384

noncomputable section

namespace Cert.KernelIdeal.Layer2

open Cert.KernelIdeal Cert.KernelIdeal.Gen Cert.KernelIdeal.Pay Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The layer's result as one array function of the nine arrays it reads. -/
def layerArr (x nf nr : S100000x64.Idx → EReal) (wsf wnf wsr wnr : S64x64.Idx → EReal) (bf br : S64.Idx → EReal) :
    S100000x64.Idx → EReal :=
  fun i => Cert.Sage.layerAt x nf nr wsf wnf wsr wnr bf br (Scalar.ofBits (F := Ideal) .f32 0x00000000#32)
    ⟨(i 0).val, idx2_lt0 i⟩ ⟨(i 1).val, idx2_lt1 i⟩

theorem layerArr_ix2 (x nf nr : S100000x64.Idx → EReal) (wsf wnf wsr wnr : S64x64.Idx → EReal) (bf br : S64.Idx → EReal)
    (r : Fin 100000) (e : Fin 64) :
    layerArr x nf nr wsf wnf wsr wnr bf br (ix2 r e)
      = Cert.Sage.layerAt x nf nr wsf wnf wsr wnr bf br (Scalar.ofBits (F := Ideal) .f32 0x00000000#32) r e := rfl

/-- The printed index maps over the grid: the three row-blocked inputs move with the result block down the rows, every
    other block index is 0, and the row-block index stays below 20. -/
theorem idx_facts : ∀ t : Fin cfg2.N, win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = win2_9.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 1) = 0
    ∧ win2_9.index t (1 : Fin 2) = 0 ∧ win2_9.index t (0 : Fin 2) ≤ 19 :=
  (by decide +kernel : ∀ t : Fin grid2.N, _)

/-- Every row block is some point's. -/
theorem idx_onto : ∀ q : Fin 20, ∃ t : Fin cfg2.N, win2_9.index t = ![q.val, 0] :=
  (by decide +kernel : ∀ q : Fin 20, ∃ t : Fin grid2.N, win2_9.index t = ![q.val, 0])

/-- What point t writes back is block t of the layer's array function. -/
theorem flushed_eq (c : Dev nD) (t : Fin cfg2.N) :
    (dat2 V c).flushed 9 t = ((cfg2.win 9).blk t).view.read (Elt Ideal)
      (layerArr (V c main_v63) (V c main_v79) (V c main_v95) (V c main_v97) (V c main_v99) (V c main_v103) (V c main_v105) (V c main_v101) (V c main_v107)) := by
  show (cfg2.win 9).cut (grid2.coords t) ((dat2 V c).after 9 t) = _
  rw [after2_9]
  unfold out2_9
  rw [View.canon_unit_zero off2]
  simp only [View.ld_unit_zero (S := S5000x64) off2, View.ld_unit_zero (S := S64x64) off2, View.ld_unit_zero (S := S64) off1]
  obtain ⟨e00, e01, e10, e11, e20, e21, e30, e31, e40, e41, e50, e60, e61, e70, e71, e80, e91, e9b⟩ := idx_facts t
  funext j
  obtain ⟨p, e, rfl⟩ : ∃ (p : Fin 5000) (e : Fin 64), j = ix2 p e := ⟨j 0, j 1, eq_ix2 j⟩
  have hR : win2_9.index t (0 : Fin 2) * 5000 + 1 * p.val < 100000 := by have := p.isLt; omega
  show k2_pay1 (F := Ideal) (k2_pay2 (iblk2 V c 0 t)) (k2_pay4 (iblk2 V c 0 t) (iblk2 V c 1 t) (iblk2 V c 3 t) (iblk2 V c 4 t) (iblk2 V c 5 t))
      (k2_pay5 (iblk2 V c 0 t) (iblk2 V c 2 t) (iblk2 V c 6 t) (iblk2 V c 7 t)) (k2_pay6 (iblk2 V c 8 t)) (ix2 p e)
    = layerArr (V c main_v63) (V c main_v79) (V c main_v95) (V c main_v97) (V c main_v99) (V c main_v103) (V c main_v105) (V c main_v101) (V c main_v107)
        (((cfg2.win 9).blk t).view.emb (ix2 p e))
  refine (layer2_pay_apply (iblk2 V c 0 t) (iblk2 V c 1 t) (iblk2 V c 2 t) (iblk2 V c 3 t) (iblk2 V c 4 t) (iblk2 V c 6 t) (iblk2 V c 7 t)
    (iblk2 V c 5 t) (iblk2 V c 8 t) p e).trans ?_
  have hout : ((cfg2.win 9).blk t).view.emb (ix2 p e) = ix2 (⟨_, hR⟩ : Fin 100000) e := by
    funext a; apply Fin.ext
    match a with
    | ⟨0, _⟩ => rfl
    | ⟨1, _⟩ => show win2_9.index t (1 : Fin 2) * 64 + 1 * e.val = e.val; omega
  rw [hout, layerArr_ix2]
  unfold Cert.Sage.layerAt Cert.Sage.branchAt blockBranch
  have hx : ∀ k : Fin 64, iblk2 V c 0 t (ix2 p k) = V c main_v63 (ix2 (⟨_, hR⟩ : Fin 100000) k) := fun k => by
    show V c main_v63 (((cfg2.win 0).blk t).view.emb (ix2 p k)) = _
    refine congrArg (V c main_v63) ?_
    funext a; apply Fin.ext
    match a with
    | ⟨0, _⟩ => show win2_0.index t (0 : Fin 2) * 5000 + 1 * p.val = win2_9.index t (0 : Fin 2) * 5000 + 1 * p.val; omega
    | ⟨1, _⟩ => show win2_0.index t (1 : Fin 2) * 64 + 1 * k.val = k.val; omega
  have hnf : ∀ k : Fin 64, iblk2 V c 1 t (ix2 p k) = V c main_v79 (ix2 (⟨_, hR⟩ : Fin 100000) k) := fun k => by
    show V c main_v79 (((cfg2.win 1).blk t).view.emb (ix2 p k)) = _
    refine congrArg (V c main_v79) ?_
    funext a; apply Fin.ext
    match a with
    | ⟨0, _⟩ => show win2_1.index t (0 : Fin 2) * 5000 + 1 * p.val = win2_9.index t (0 : Fin 2) * 5000 + 1 * p.val; omega
    | ⟨1, _⟩ => show win2_1.index t (1 : Fin 2) * 64 + 1 * k.val = k.val; omega
  have hnr : ∀ k : Fin 64, iblk2 V c 2 t (ix2 p k) = V c main_v95 (ix2 (⟨_, hR⟩ : Fin 100000) k) := fun k => by
    show V c main_v95 (((cfg2.win 2).blk t).view.emb (ix2 p k)) = _
    refine congrArg (V c main_v95) ?_
    funext a; apply Fin.ext
    match a with
    | ⟨0, _⟩ => show win2_2.index t (0 : Fin 2) * 5000 + 1 * p.val = win2_9.index t (0 : Fin 2) * 5000 + 1 * p.val; omega
    | ⟨1, _⟩ => show win2_2.index t (1 : Fin 2) * 64 + 1 * k.val = k.val; omega
  have hwsf : ∀ k : Fin 64, iblk2 V c 3 t (ix2 k e) = V c main_v97 (ix2 k e) := fun k => by
    show V c main_v97 (((cfg2.win 3).blk t).view.emb (ix2 k e)) = _
    refine congrArg (V c main_v97) ?_
    funext a; apply Fin.ext
    match a with
    | ⟨0, _⟩ => show win2_3.index t (0 : Fin 2) * 64 + 1 * k.val = k.val; omega
    | ⟨1, _⟩ => show win2_3.index t (1 : Fin 2) * 64 + 1 * e.val = e.val; omega
  have hwnf : ∀ k : Fin 64, iblk2 V c 4 t (ix2 k e) = V c main_v99 (ix2 k e) := fun k => by
    show V c main_v99 (((cfg2.win 4).blk t).view.emb (ix2 k e)) = _
    refine congrArg (V c main_v99) ?_
    funext a; apply Fin.ext
    match a with
    | ⟨0, _⟩ => show win2_4.index t (0 : Fin 2) * 64 + 1 * k.val = k.val; omega
    | ⟨1, _⟩ => show win2_4.index t (1 : Fin 2) * 64 + 1 * e.val = e.val; omega
  have hwsr : ∀ k : Fin 64, iblk2 V c 6 t (ix2 k e) = V c main_v103 (ix2 k e) := fun k => by
    show V c main_v103 (((cfg2.win 6).blk t).view.emb (ix2 k e)) = _
    refine congrArg (V c main_v103) ?_
    funext a; apply Fin.ext
    match a with
    | ⟨0, _⟩ => show win2_6.index t (0 : Fin 2) * 64 + 1 * k.val = k.val; omega
    | ⟨1, _⟩ => show win2_6.index t (1 : Fin 2) * 64 + 1 * e.val = e.val; omega
  have hwnr : ∀ k : Fin 64, iblk2 V c 7 t (ix2 k e) = V c main_v105 (ix2 k e) := fun k => by
    show V c main_v105 (((cfg2.win 7).blk t).view.emb (ix2 k e)) = _
    refine congrArg (V c main_v105) ?_
    funext a; apply Fin.ext
    match a with
    | ⟨0, _⟩ => show win2_7.index t (0 : Fin 2) * 64 + 1 * k.val = k.val; omega
    | ⟨1, _⟩ => show win2_7.index t (1 : Fin 2) * 64 + 1 * e.val = e.val; omega
  have hbf : iblk2 V c 5 t (ix1 e) = V c main_v101 (ix1 e) := by
    show V c main_v101 (((cfg2.win 5).blk t).view.emb (ix1 e)) = _
    refine congrArg (V c main_v101) ?_
    funext a; apply Fin.ext
    match a with
    | ⟨0, _⟩ => show win2_5.index t (0 : Fin 1) * 64 + 1 * e.val = e.val; omega
  have hbr : iblk2 V c 8 t (ix1 e) = V c main_v107 (ix1 e) := by
    show V c main_v107 (((cfg2.win 8).blk t).view.emb (ix1 e)) = _
    refine congrArg (V c main_v107) ?_
    funext a; apply Fin.ext
    match a with
    | ⟨0, _⟩ => show win2_8.index t (0 : Fin 1) * 64 + 1 * e.val = e.val; omega
  have hxe : iblk2 V c 0 t (ix2 p e) = V c main_v63 (ix2 (⟨_, hR⟩ : Fin 100000) e) := hx e
  rw [hxe, hbf, hbr]
  simp only [hx, hnf, hnr, hwsf, hwnf, hwsr, hwnr]

/-- An index of the result array is in point t's block iff each coordinate is in the block's range on its axis. -/
theorem mem_blk (t : Fin cfg2.N) (i : S100000x64.Idx) :
    i ∈ ((cfg2.win 9).blk t).view.set ↔ ∀ a : Fin 2, win2_9.index t a * S5000x64.size a ≤ (i a).val ∧ (i a).val < win2_9.index t a * S5000x64.size a + S5000x64.size a := by
  show i ∈ ((View.whole main_v108).slice (win2_9.rect t)).set ↔ _
  rw [View.set_slice_whole, Rect.mem_set_unit]
  exact Iff.rfl

/-- Every index of the result array is in some point's block: row r is in block r / 5000. -/
theorem covered (i : S100000x64.Idx) :
    ∃ t : Fin cfg2.N, (cfg2.win 9).flush t = true ∧ i ∈ ((cfg2.win 9).blk t).view.set := by
  have hi0 : (i 0).val < 100000 := (i 0).isLt
  have hi1 : (i 1).val < 64 := (i 1).isLt
  obtain ⟨t, ht⟩ := idx_onto ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 64 ≤ (i 1).val ∧ (i 1).val < win2_9.index t (1 : Fin 2) * 64 + 64; omega

/-- The result array after the region: the layer's function of the arrays as the region finds them. -/
theorem final (c : Dev nD) :
    (dat2 V c).arrAt 9 cfg2.N
      = layerArr (V c main_v63) (V c main_v79) (V c main_v95) (V c main_v97) (V c main_v99) (V c main_v103) (V c main_v105) (V c main_v101) (V c main_v107) :=
  (dat2 V c).arrAt_eq_of_cover 9 _ (fun t _ => flushed_eq V c t) covered

end Cert.KernelIdeal.Layer2

end
-- ==== Proof.NormArray.lean ====
/-
  The normalising region, read as one array.

  Its grid has one point, which stages the whole 1024 × 64 array of gathered rows and writes the whole result back:
  entry (b, e) of the result is x(b, e) · (1 / √(Σ_k x(b, k)²)).
-/
import proofs.«177401_j14783277433090_2_alg».proof.Proof.Gen.KernelIdeal.Frame
import proofs.«177401_j14783277433090_2_alg».proof.Proof.KernelPayloads

set_option maxRecDepth 16384

noncomputable section

namespace Cert.KernelIdeal.Norm

open Cert.KernelIdeal Cert.KernelIdeal.Gen Cert.KernelIdeal.Pay Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl

/-- One entry of the kernel's normalised rows: the entry times the reciprocal of its row's root sum of squares. -/
def normAt (x : S1024x64.Idx → EReal) (b : Fin 1024) (e : Fin 64) : EReal :=
  x (ix2 b e) * Ideal.div 1 (Ideal.sqrt (∑ k : Fin 64, x (ix2 b k) * x (ix2 b k)))

/-- The region's result as one array function of the array it reads. -/
def normArr (x : S1024x64.Idx → EReal) : S1024x64.Idx → EReal :=
  fun i => normAt x ⟨(i 0).val, idx2_lt0 i⟩ ⟨(i 1).val, idx2_lt1 i⟩

theorem normArr_ix2 (x : S1024x64.Idx → EReal) (b : Fin 1024) (e : Fin 64) : normArr x (ix2 b e) = normAt x b e := rfl

/-- Both windows sit at block (0, 0) at the one grid point. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0 :=
  (by decide +kernel : ∀ t : Fin grid3.N, _)

/-- What the point writes back is the whole of the normalised array. -/
theorem flushed_eq (c : Dev nD) (t : Fin cfg3.N) :
    (dat3 V c).flushed 1 t = ((cfg3.win 1).blk t).view.read (Elt Ideal) (normArr (V c main_v115)) := by
  show (cfg3.win 1).cut (grid3.coords t) ((dat3 V c).after 1 t) = _
  rw [after3_1]
  unfold out3_1
  rw [View.canon_unit_zero off2]
  simp only [View.ld_unit_zero (S := S1024x64) off2]
  obtain ⟨e00, e01, e10, e11⟩ := idx_facts t
  funext j
  obtain ⟨p, e, rfl⟩ : ∃ (p : Fin 1024) (e : Fin 64), j = ix2 p e := ⟨j 0, j 1, eq_ix2 j⟩
  show k3_pay1 (F := Ideal) (iblk3 V c 0 t) (ix2 p e) = normArr (V c main_v115) (((cfg3.win 1).blk t).view.emb (ix2 p e))
  refine (norm_pay_apply (iblk3 V c 0 t) p e).trans ?_
  have hout : ((cfg3.win 1).blk t).view.emb (ix2 p e) = ix2 p e := by
    funext a; apply Fin.ext
    match a with
    | ⟨0, _⟩ => show win3_1.index t (0 : Fin 2) * 1024 + 1 * p.val = p.val; omega
    | ⟨1, _⟩ => show win3_1.index t (1 : Fin 2) * 64 + 1 * e.val = e.val; omega
  rw [hout, normArr_ix2]
  unfold normAt
  have hx : ∀ k : Fin 64, iblk3 V c 0 t (ix2 p k) = V c main_v115 (ix2 p k) := fun k => by
    show V c main_v115 (((cfg3.win 0).blk t).view.emb (ix2 p k)) = _
    refine congrArg (V c main_v115) ?_
    funext a; apply Fin.ext
    match a with
    | ⟨0, _⟩ => show win3_0.index t (0 : Fin 2) * 1024 + 1 * p.val = p.val; omega
    | ⟨1, _⟩ => show win3_0.index t (1 : Fin 2) * 64 + 1 * k.val = k.val; omega
  rw [hx e]
  simp only [hx]

/-- An index of the result array is in the point's block iff each coordinate is in the block's range on its axis. -/
theorem mem_blk (t : Fin cfg3.N) (i : S1024x64.Idx) :
    i ∈ ((cfg3.win 1).blk t).view.set ↔ ∀ a : Fin 2, win3_1.index t a * S1024x64.size a ≤ (i a).val ∧ (i a).val < win3_1.index t a * S1024x64.size a + S1024x64.size a := by
  show i ∈ ((View.whole main_v116).slice (win3_1.rect t)).set ↔ _
  rw [View.set_slice_whole, Rect.mem_set_unit]
  exact Iff.rfl

/-- The one point's block is the whole array. -/
theorem covered (i : S1024x64.Idx) :
    ∃ t : Fin cfg3.N, (cfg3.win 1).flush t = true ∧ i ∈ ((cfg3.win 1).blk t).view.set := by
  have hi0 : (i 0).val < 1024 := (i 0).isLt
  have hi1 : (i 1).val < 64 := (i 1).isLt
  obtain ⟨e00, e01, e10, e11⟩ := idx_facts t3_0
  refine ⟨t3_0, flush3_1 t3_0, ?_⟩
  rw [mem_blk]
  intro a
  match a with
  | ⟨0, _⟩ => show win3_1.index t3_0 (0 : Fin 2) * 1024 ≤ (i 0).val ∧ (i 0).val < win3_1.index t3_0 (0 : Fin 2) * 1024 + 1024; omega
  | ⟨1, _⟩ => show win3_1.index t3_0 (1 : Fin 2) * 64 ≤ (i 1).val ∧ (i 1).val < win3_1.index t3_0 (1 : Fin 2) * 64 + 64; omega

/-- The result array after the region: the normalised rows of the array the region finds. -/
theorem final (c : Dev nD) : (dat3 V c).arrAt 1 cfg3.N = normArr (V c main_v115) :=
  (dat3 V c).arrAt_eq_of_cover 1 _ (fun t _ => flushed_eq V c t) covered

end Cert.KernelIdeal.Norm

end
-- ==== Proof.Folds.lean ====
/-
  The buffers the kernel regions read, followed through @main.

  Between the launch and each region the program's state is a fold: host operations rewrite the buffers they write and
  leave the rest; a region replaces its arrays by what its write-backs leave and leaves the rest. Read through that
  fold, every array a region stages is a named function of the launch contents of the arguments:
    region 0 (encoder) reads the text features, the encoder weights and bias as launched;
    region 1 (layer 0) reads x₀ = the encoder's array, its two neighbourhood means, and layer 0 of each stacked parameter;
    region 2 (layer 1) reads x₁ = layer 0's array, its two neighbourhood means, and layer 1 of each stacked parameter;
    region 3 (normalise) reads the rows of x₂ = layer 1's array picked by the id vector.
  The program's result is region 3's array.
-/
import proofs.«177401_j14783277433090_2_alg».proof.Proof.Gen.KernelIdeal.Frame
import proofs.«177401_j14783277433090_2_alg».proof.Proof.HostGlue
import proofs.«177401_j14783277433090_2_alg».proof.Proof.EncoderArray
import proofs.«177401_j14783277433090_2_alg».proof.Proof.Layer1Array
import proofs.«177401_j14783277433090_2_alg».proof.Proof.Layer2Array
import proofs.«177401_j14783277433090_2_alg».proof.Proof.NormArray
import Idealize.ShloMosaic.Lib.StableHlo.Run

set_option maxRecDepth 16384

noncomputable section

namespace Cert.KernelIdeal.Folds

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the encoder: the arguments as launched, the two inverse degree vectors computed -/

theorem W4_main_arg0 (c : Dev nD) : W4 m ρ c (Proc.devRef .tc main_arg0) = (m ((c : Thread nD τ).loc main_arg0)) := by
  show StableHlo.after hostOps0_3 (StableHlo.after hostOps0_2 (StableHlo.after hostOps0_1 (StableHlo.after hostOps0 (W0 m ρ c)))) (Proc.devRef .tc main_arg0) = _
  after_results_simp

theorem W4_main_arg2 (c : Dev nD) : W4 m ρ c (Proc.devRef .tc main_arg2) = (m ((c : Thread nD τ).loc main_arg2)) := by
  show StableHlo.after hostOps0_3 (StableHlo.after hostOps0_2 (StableHlo.after hostOps0_1 (StableHlo.after hostOps0 (W0 m ρ c)))) (Proc.devRef .tc main_arg2) = _
  after_results_simp

theorem W4_main_arg3 (c : Dev nD) : W4 m ρ c (Proc.devRef .tc main_arg3) = (m ((c : Thread nD τ).loc main_arg3)) := by
  show StableHlo.after hostOps0_3 (StableHlo.after hostOps0_2 (StableHlo.after hostOps0_1 (StableHlo.after hostOps0 (W0 m ρ c)))) (Proc.devRef .tc main_arg3) = _
  after_results_simp

theorem W4_main_arg1 (c : Dev nD) : W4 m ρ c (Proc.devRef .tc main_arg1) = (m ((c : Thread nD τ).loc main_arg1)) := by
  show StableHlo.after hostOps0_3 (StableHlo.after hostOps0_2 (StableHlo.after hostOps0_1 (StableHlo.after hostOps0 (W0 m ρ c)))) (Proc.devRef .tc main_arg1) = _
  after_results_simp

theorem W4_main_arg4 (c : Dev nD) : W4 m ρ c (Proc.devRef .tc main_arg4) = (m ((c : Thread nD τ).loc main_arg4)) := by
  show StableHlo.after hostOps0_3 (StableHlo.after hostOps0_2 (StableHlo.after hostOps0_1 (StableHlo.after hostOps0 (W0 m ρ c)))) (Proc.devRef .tc main_arg4) = _
  after_results_simp

theorem W4_main_arg5 (c : Dev nD) : W4 m ρ c (Proc.devRef .tc main_arg5) = (m ((c : Thread nD τ).loc main_arg5)) := by
  show StableHlo.after hostOps0_3 (StableHlo.after hostOps0_2 (StableHlo.after hostOps0_1 (StableHlo.after hostOps0 (W0 m ρ c)))) (Proc.devRef .tc main_arg5) = _
  after_results_simp

theorem W4_main_arg6 (c : Dev nD) : W4 m ρ c (Proc.devRef .tc main_arg6) = (m ((c : Thread nD τ).loc main_arg6)) := by
  show StableHlo.after hostOps0_3 (StableHlo.after hostOps0_2 (StableHlo.after hostOps0_1 (StableHlo.after hostOps0 (W0 m ρ c)))) (Proc.devRef .tc main_arg6) = _
  after_results_simp

theorem W4_main_arg7 (c : Dev nD) : W4 m ρ c (Proc.devRef .tc main_arg7) = (m ((c : Thread nD τ).loc main_arg7)) := by
  show StableHlo.after hostOps0_3 (StableHlo.after hostOps0_2 (StableHlo.after hostOps0_1 (StableHlo.after hostOps0 (W0 m ρ c)))) (Proc.devRef .tc main_arg7) = _
  after_results_simp

theorem W4_main_arg8 (c : Dev nD) : W4 m ρ c (Proc.devRef .tc main_arg8) = (m ((c : Thread nD τ).loc main_arg8)) := by
  show StableHlo.after hostOps0_3 (StableHlo.after hostOps0_2 (StableHlo.after hostOps0_1 (StableHlo.after hostOps0 (W0 m ρ c)))) (Proc.devRef .tc main_arg8) = _
  after_results_simp

theorem W4_main_arg9 (c : Dev nD) : W4 m ρ c (Proc.devRef .tc main_arg9) = (m ((c : Thread nD τ).loc main_arg9)) := by
  show StableHlo.after hostOps0_3 (StableHlo.after hostOps0_2 (StableHlo.after hostOps0_1 (StableHlo.after hostOps0 (W0 m ρ c)))) (Proc.devRef .tc main_arg9) = _
  after_results_simp

theorem W4_main_arg10 (c : Dev nD) : W4 m ρ c (Proc.devRef .tc main_arg10) = (m ((c : Thread nD τ).loc main_arg10)) := by
  show StableHlo.after hostOps0_3 (StableHlo.after hostOps0_2 (StableHlo.after hostOps0_1 (StableHlo.after hostOps0 (W0 m ρ c)))) (Proc.devRef .tc main_arg10) = _
  after_results_simp

theorem W4_main_arg11 (c : Dev nD) : W4 m ρ c (Proc.devRef .tc main_arg11) = (m ((c : Thread nD τ).loc main_arg11)) := by
  show StableHlo.after hostOps0_3 (StableHlo.after hostOps0_2 (StableHlo.after hostOps0_1 (StableHlo.after hostOps0 (W0 m ρ c)))) (Proc.devRef .tc main_arg11) = _
  after_results_simp

theorem W4_main_arg12 (c : Dev nD) : W4 m ρ c (Proc.devRef .tc main_arg12) = (m ((c : Thread nD τ).loc main_arg12)) := by
  show StableHlo.after hostOps0_3 (StableHlo.after hostOps0_2 (StableHlo.after hostOps0_1 (StableHlo.after hostOps0 (W0 m ρ c)))) (Proc.devRef .tc main_arg12) = _
  after_results_simp

/-! ### The inverse degree vectors

Each is computed by a stretch of plain operations (a scatter-add of ones, the test deg > 0, the quotient 1/deg) followed
by the three operations of an outlined `where`. Each stretch is read for an ARBITRARY valuation of the buffers, so that
the operands stay names; an operation of the outlined function reads and writes its buffers through a transport along
"the buffer's type is the value's type", which holds by computation. -/

variable (V : Valuation τ sig (Elt Ideal))

theorem where0 : StableHlo.after hostOps0_1 V (Proc.devRef .tc main_v8)
    = select (V (Proc.devRef .tc main_v5)) (V (Proc.devRef .tc main_v7)) (broadcastInDim S100000 ![] bcast_S_S100000 (V (Proc.devRef .tc main_cst_3))) := by
  after_results_simp
  rfl

theorem where1 : StableHlo.after hostOps0_3 V (Proc.devRef .tc main_v17)
    = select (V (Proc.devRef .tc main_v14)) (V (Proc.devRef .tc main_v16)) (broadcastInDim S100000 ![] bcast_S_S100000 (V (Proc.devRef .tc main_cst_8))) := by
  after_results_simp
  rfl

theorem deg0_v5 : StableHlo.after hostOps0 V (Proc.devRef .tc main_v5)
    = cmpf (F := Ideal) .ogt (Glue.deg (V (Proc.devRef .tc main_arg11))) (broadcastInDim S100000 ![] bcast_S_S100000 (constant S_ .f32 0x00000000#32)) := by
  after_results_simp
  rfl

theorem deg0_v7 : StableHlo.after hostOps0 V (Proc.devRef .tc main_v7)
    = Host.divf (broadcastInDim S100000 ![] bcast_S_S100000 (constant (F := Ideal) S_ .f32 0x3F800000#32)) (Glue.deg (V (Proc.devRef .tc main_arg11))) := by
  after_results_simp
  rfl

theorem deg0_cst : StableHlo.after hostOps0 V (Proc.devRef .tc main_cst_3) = constant (F := Ideal) S_ .f32 0x00000000#32 := by
  after_results_simp

theorem deg1_v14 : StableHlo.after hostOps0_2 V (Proc.devRef .tc main_v14)
    = cmpf (F := Ideal) .ogt (Glue.deg (V (Proc.devRef .tc main_arg10))) (broadcastInDim S100000 ![] bcast_S_S100000 (constant S_ .f32 0x00000000#32)) := by
  after_results_simp
  rfl

theorem deg1_v16 : StableHlo.after hostOps0_2 V (Proc.devRef .tc main_v16)
    = Host.divf (broadcastInDim S100000 ![] bcast_S_S100000 (constant (F := Ideal) S_ .f32 0x3F800000#32)) (Glue.deg (V (Proc.devRef .tc main_arg10))) := by
  after_results_simp
  rfl

theorem deg1_cst : StableHlo.after hostOps0_2 V (Proc.devRef .tc main_cst_8) = constant (F := Ideal) S_ .f32 0x00000000#32 := by
  after_results_simp

theorem keep2_v8 : StableHlo.after hostOps0_2 V (Proc.devRef .tc main_v8) = (V (Proc.devRef .tc main_v8)) := by after_results_simp
theorem keep3_v8 : StableHlo.after hostOps0_3 V (Proc.devRef .tc main_v8) = (V (Proc.devRef .tc main_v8)) := by after_results_simp
theorem keep1_arg10 : StableHlo.after hostOps0_1 V (Proc.devRef .tc main_arg10) = (V (Proc.devRef .tc main_arg10)) := by after_results_simp
theorem keep0_arg10 : StableHlo.after hostOps0 V (Proc.devRef .tc main_arg10) = (V (Proc.devRef .tc main_arg10)) := by after_results_simp

theorem W4_main_v8 (c : Dev nD) : W4 m ρ c (Proc.devRef .tc main_v8) = Glue.invDeg (m ((c : Thread nD τ).loc main_arg11)) := by
  show StableHlo.after hostOps0_3 (StableHlo.after hostOps0_2 (StableHlo.after hostOps0_1 (StableHlo.after hostOps0 (W0 m ρ c)))) (Proc.devRef .tc main_v8) = _
  rw [keep3_v8, keep2_v8, where0, deg0_v5, deg0_v7, deg0_cst]
  rfl

theorem W4_main_v17 (c : Dev nD) : W4 m ρ c (Proc.devRef .tc main_v17) = Glue.invDeg (m ((c : Thread nD τ).loc main_arg10)) := by
  show StableHlo.after hostOps0_3 (StableHlo.after hostOps0_2 (StableHlo.after hostOps0_1 (StableHlo.after hostOps0 (W0 m ρ c)))) (Proc.devRef .tc main_v17) = _
  rw [where1, deg1_v14, deg1_v16, deg1_cst, keep1_arg10, keep0_arg10]
  rfl

/-! ## The encoder's array x₀ -/

/-- x₀: the encoder's array function of the launched text features, weights and bias. -/
def x0 (c : Dev nD) : S100000x64.Idx → EReal := Enc.encArr (m ((c : Thread nD τ).loc main_arg0)) (m ((c : Thread nD τ).loc main_arg2)) (m ((c : Thread nD τ).loc main_arg3))

theorem W5_main_v18 (c : Dev nD) : W5 m ρ c (Proc.devRef .tc main_v18) = x0 m c := by
  refine (W5_arr m ρ c 3).trans ((Enc.final (V4 m ρ) c).trans ?_)
  show Enc.encArr (W4 m ρ c (Proc.devRef .tc main_arg0)) (W4 m ρ c (Proc.devRef .tc main_arg2)) (W4 m ρ c (Proc.devRef .tc main_arg3)) = _
  rw [W4_main_arg0, W4_main_arg2, W4_main_arg3]
  rfl

theorem W5_main_arg1 (c : Dev nD) : W5 m ρ c (Proc.devRef .tc main_arg1) = (m ((c : Thread nD τ).loc main_arg1)) :=
  (W5_of_ne m ρ c main_arg1 (by decide)).trans (W4_main_arg1 m ρ c)

theorem W5_main_arg4 (c : Dev nD) : W5 m ρ c (Proc.devRef .tc main_arg4) = (m ((c : Thread nD τ).loc main_arg4)) :=
  (W5_of_ne m ρ c main_arg4 (by decide)).trans (W4_main_arg4 m ρ c)

theorem W5_main_arg5 (c : Dev nD) : W5 m ρ c (Proc.devRef .tc main_arg5) = (m ((c : Thread nD τ).loc main_arg5)) :=
  (W5_of_ne m ρ c main_arg5 (by decide)).trans (W4_main_arg5 m ρ c)

theorem W5_main_arg6 (c : Dev nD) : W5 m ρ c (Proc.devRef .tc main_arg6) = (m ((c : Thread nD τ).loc main_arg6)) :=
  (W5_of_ne m ρ c main_arg6 (by decide)).trans (W4_main_arg6 m ρ c)

theorem W5_main_arg7 (c : Dev nD) : W5 m ρ c (Proc.devRef .tc main_arg7) = (m ((c : Thread nD τ).loc main_arg7)) :=
  (W5_of_ne m ρ c main_arg7 (by decide)).trans (W4_main_arg7 m ρ c)

theorem W5_main_arg8 (c : Dev nD) : W5 m ρ c (Proc.devRef .tc main_arg8) = (m ((c : Thread nD τ).loc main_arg8)) :=
  (W5_of_ne m ρ c main_arg8 (by decide)).trans (W4_main_arg8 m ρ c)

theorem W5_main_arg9 (c : Dev nD) : W5 m ρ c (Proc.devRef .tc main_arg9) = (m ((c : Thread nD τ).loc main_arg9)) :=
  (W5_of_ne m ρ c main_arg9 (by decide)).trans (W4_main_arg9 m ρ c)

theorem W5_main_arg10 (c : Dev nD) : W5 m ρ c (Proc.devRef .tc main_arg10) = (m ((c : Thread nD τ).loc main_arg10)) :=
  (W5_of_ne m ρ c main_arg10 (by decide)).trans (W4_main_arg10 m ρ c)

theorem W5_main_arg11 (c : Dev nD) : W5 m ρ c (Proc.devRef .tc main_arg11) = (m ((c : Thread nD τ).loc main_arg11)) :=
  (W5_of_ne m ρ c main_arg11 (by decide)).trans (W4_main_arg11 m ρ c)

theorem W5_main_arg12 (c : Dev nD) : W5 m ρ c (Proc.devRef .tc main_arg12) = (m ((c : Thread nD τ).loc main_arg12)) :=
  (W5_of_ne m ρ c main_arg12 (by decide)).trans (W4_main_arg12 m ρ c)

theorem W5_main_v8 (c : Dev nD) : W5 m ρ c (Proc.devRef .tc main_v8) = (Glue.invDeg (m ((c : Thread nD τ).loc main_arg11))) :=
  (W5_of_ne m ρ c main_v8 (by decide)).trans (W4_main_v8 m ρ c)

theorem W5_main_v17 (c : Dev nD) : W5 m ρ c (Proc.devRef .tc main_v17) = (Glue.invDeg (m ((c : Thread nD τ).loc main_arg10))) :=
  (W5_of_ne m ρ c main_v17 (by decide)).trans (W4_main_v17 m ρ c)

/-! ## Before layer 0: x₀ kept, its neighbourhood means and layer 0 of the parameters computed -/

theorem W6_main_v18 (c : Dev nD) : W6 m ρ c (Proc.devRef .tc main_v18) = x0 m c := by
  show StableHlo.after hostOps1 (W5 m ρ c) (Proc.devRef .tc main_v18) = _
  after_results_simp
  exact W5_main_v18 m ρ c

theorem W6_main_arg1 (c : Dev nD) : W6 m ρ c (Proc.devRef .tc main_arg1) = (m ((c : Thread nD τ).loc main_arg1)) := by
  show StableHlo.after hostOps1 (W5 m ρ c) (Proc.devRef .tc main_arg1) = _
  after_results_simp
  exact W5_main_arg1 m ρ c

theorem W6_main_arg4 (c : Dev nD) : W6 m ρ c (Proc.devRef .tc main_arg4) = (m ((c : Thread nD τ).loc main_arg4)) := by
  show StableHlo.after hostOps1 (W5 m ρ c) (Proc.devRef .tc main_arg4) = _
  after_results_simp
  exact W5_main_arg4 m ρ c

theorem W6_main_arg5 (c : Dev nD) : W6 m ρ c (Proc.devRef .tc main_arg5) = (m ((c : Thread nD τ).loc main_arg5)) := by
  show StableHlo.after hostOps1 (W5 m ρ c) (Proc.devRef .tc main_arg5) = _
  after_results_simp
  exact W5_main_arg5 m ρ c

theorem W6_main_arg6 (c : Dev nD) : W6 m ρ c (Proc.devRef .tc main_arg6) = (m ((c : Thread nD τ).loc main_arg6)) := by
  show StableHlo.after hostOps1 (W5 m ρ c) (Proc.devRef .tc main_arg6) = _
  after_results_simp
  exact W5_main_arg6 m ρ c

theorem W6_main_arg7 (c : Dev nD) : W6 m ρ c (Proc.devRef .tc main_arg7) = (m ((c : Thread nD τ).loc main_arg7)) := by
  show StableHlo.after hostOps1 (W5 m ρ c) (Proc.devRef .tc main_arg7) = _
  after_results_simp
  exact W5_main_arg7 m ρ c

theorem W6_main_arg8 (c : Dev nD) : W6 m ρ c (Proc.devRef .tc main_arg8) = (m ((c : Thread nD τ).loc main_arg8)) := by
  show StableHlo.after hostOps1 (W5 m ρ c) (Proc.devRef .tc main_arg8) = _
  after_results_simp
  exact W5_main_arg8 m ρ c

theorem W6_main_arg9 (c : Dev nD) : W6 m ρ c (Proc.devRef .tc main_arg9) = (m ((c : Thread nD τ).loc main_arg9)) := by
  show StableHlo.after hostOps1 (W5 m ρ c) (Proc.devRef .tc main_arg9) = _
  after_results_simp
  exact W5_main_arg9 m ρ c

theorem W6_main_arg10 (c : Dev nD) : W6 m ρ c (Proc.devRef .tc main_arg10) = (m ((c : Thread nD τ).loc main_arg10)) := by
  show StableHlo.after hostOps1 (W5 m ρ c) (Proc.devRef .tc main_arg10) = _
  after_results_simp
  exact W5_main_arg10 m ρ c

theorem W6_main_arg11 (c : Dev nD) : W6 m ρ c (Proc.devRef .tc main_arg11) = (m ((c : Thread nD τ).loc main_arg11)) := by
  show StableHlo.after hostOps1 (W5 m ρ c) (Proc.devRef .tc main_arg11) = _
  after_results_simp
  exact W5_main_arg11 m ρ c

theorem W6_main_arg12 (c : Dev nD) : W6 m ρ c (Proc.devRef .tc main_arg12) = (m ((c : Thread nD τ).loc main_arg12)) := by
  show StableHlo.after hostOps1 (W5 m ρ c) (Proc.devRef .tc main_arg12) = _
  after_results_simp
  exact W5_main_arg12 m ρ c

theorem W6_main_v8 (c : Dev nD) : W6 m ρ c (Proc.devRef .tc main_v8) = (Glue.invDeg (m ((c : Thread nD τ).loc main_arg11))) := by
  show StableHlo.after hostOps1 (W5 m ρ c) (Proc.devRef .tc main_v8) = _
  after_results_simp
  exact W5_main_v8 m ρ c

theorem W6_main_v17 (c : Dev nD) : W6 m ρ c (Proc.devRef .tc main_v17) = (Glue.invDeg (m ((c : Thread nD τ).loc main_arg10))) := by
  show StableHlo.after hostOps1 (W5 m ρ c) (Proc.devRef .tc main_v17) = _
  after_results_simp
  exact W5_main_v17 m ρ c

/-- The forward neighbourhood mean of x₀: gathered along the sources, scattered into the destinations. -/
def nf1 (c : Dev nD) : S100000x64.Idx → EReal :=
  Glue.neigh (x0 m c) (m ((c : Thread nD τ).loc main_arg1)) (m ((c : Thread nD τ).loc main_arg10)) (m ((c : Thread nD τ).loc main_arg11)) (Glue.invDeg (m ((c : Thread nD τ).loc main_arg11)))
/-- The reversed neighbourhood mean of x₀. -/
def nr1 (c : Dev nD) : S100000x64.Idx → EReal :=
  Glue.neigh (x0 m c) (m ((c : Thread nD τ).loc main_arg1)) (m ((c : Thread nD τ).loc main_arg11)) (m ((c : Thread nD τ).loc main_arg10)) (Glue.invDeg (m ((c : Thread nD τ).loc main_arg10)))

theorem W6_main_v34 (c : Dev nD) : W6 m ρ c (Proc.devRef .tc main_v34) = nf1 m c := by
  show StableHlo.after hostOps1 (W5 m ρ c) (Proc.devRef .tc main_v34) = _
  after_results_simp
  rw [W5_main_v18, W5_main_arg1, W5_main_arg10, W5_main_arg11, W5_main_v8]
  rfl

theorem W6_main_v50 (c : Dev nD) : W6 m ρ c (Proc.devRef .tc main_v50) = nr1 m c := by
  show StableHlo.after hostOps1 (W5 m ρ c) (Proc.devRef .tc main_v50) = _
  after_results_simp
  rw [W5_main_v18, W5_main_arg1, W5_main_arg10, W5_main_arg11, W5_main_v17]
  rfl

theorem W6_main_v52 (c : Dev nD) : W6 m ρ c (Proc.devRef .tc main_v52) = Glue.wmat0 (m ((c : Thread nD τ).loc main_arg4)) := by
  show StableHlo.after hostOps1 (W5 m ρ c) (Proc.devRef .tc main_v52) = _
  after_results_simp
  rw [W5_main_arg4]
  rfl

theorem W6_main_v54 (c : Dev nD) : W6 m ρ c (Proc.devRef .tc main_v54) = Glue.wmat0 (m ((c : Thread nD τ).loc main_arg5)) := by
  show StableHlo.after hostOps1 (W5 m ρ c) (Proc.devRef .tc main_v54) = _
  after_results_simp
  rw [W5_main_arg5]
  rfl

theorem W6_main_v56 (c : Dev nD) : W6 m ρ c (Proc.devRef .tc main_v56) = Glue.bvec0 (m ((c : Thread nD τ).loc main_arg6)) := by
  show StableHlo.after hostOps1 (W5 m ρ c) (Proc.devRef .tc main_v56) = _
  after_results_simp
  rw [W5_main_arg6]
  rfl

theorem W6_main_v58 (c : Dev nD) : W6 m ρ c (Proc.devRef .tc main_v58) = Glue.wmat0 (m ((c : Thread nD τ).loc main_arg7)) := by
  show StableHlo.after hostOps1 (W5 m ρ c) (Proc.devRef .tc main_v58) = _
  after_results_simp
  rw [W5_main_arg7]
  rfl

theorem W6_main_v60 (c : Dev nD) : W6 m ρ c (Proc.devRef .tc main_v60) = Glue.wmat0 (m ((c : Thread nD τ).loc main_arg8)) := by
  show StableHlo.after hostOps1 (W5 m ρ c) (Proc.devRef .tc main_v60) = _
  after_results_simp
  rw [W5_main_arg8]
  rfl

theorem W6_main_v62 (c : Dev nD) : W6 m ρ c (Proc.devRef .tc main_v62) = Glue.bvec0 (m ((c : Thread nD τ).loc main_arg9)) := by
  show StableHlo.after hostOps1 (W5 m ρ c) (Proc.devRef .tc main_v62) = _
  after_results_simp
  rw [W5_main_arg9]
  rfl

/-! ## Layer 0's array x₁ -/

/-- x₁: layer 0's array function of x₀, its two neighbourhood means and layer 0 of the parameters. -/
def x1 (c : Dev nD) : S100000x64.Idx → EReal :=
  Layer1.layerArr (x0 m c) (nf1 m c) (nr1 m c) (Glue.wmat0 (m ((c : Thread nD τ).loc main_arg4))) (Glue.wmat0 (m ((c : Thread nD τ).loc main_arg5)))
    (Glue.wmat0 (m ((c : Thread nD τ).loc main_arg7))) (Glue.wmat0 (m ((c : Thread nD τ).loc main_arg8))) (Glue.bvec0 (m ((c : Thread nD τ).loc main_arg6))) (Glue.bvec0 (m ((c : Thread nD τ).loc main_arg9)))

theorem W7_main_v63 (c : Dev nD) : W7 m ρ c (Proc.devRef .tc main_v63) = x1 m c := by
  refine (W7_arr m ρ c 9).trans ((Layer1.final (V6 m ρ) c).trans ?_)
  show Layer1.layerArr (W6 m ρ c (Proc.devRef .tc main_v18)) (W6 m ρ c (Proc.devRef .tc main_v34)) (W6 m ρ c (Proc.devRef .tc main_v50))
    (W6 m ρ c (Proc.devRef .tc main_v52)) (W6 m ρ c (Proc.devRef .tc main_v54)) (W6 m ρ c (Proc.devRef .tc main_v58)) (W6 m ρ c (Proc.devRef .tc main_v60))
    (W6 m ρ c (Proc.devRef .tc main_v56)) (W6 m ρ c (Proc.devRef .tc main_v62)) = _
  rw [W6_main_v18, W6_main_v34, W6_main_v50, W6_main_v52, W6_main_v54, W6_main_v58, W6_main_v60, W6_main_v56, W6_main_v62]
  rfl

theorem W7_main_arg1 (c : Dev nD) : W7 m ρ c (Proc.devRef .tc main_arg1) = (m ((c : Thread nD τ).loc main_arg1)) :=
  (W7_of_ne m ρ c main_arg1 (by decide)).trans (W6_main_arg1 m ρ c)

theorem W7_main_arg4 (c : Dev nD) : W7 m ρ c (Proc.devRef .tc main_arg4) = (m ((c : Thread nD τ).loc main_arg4)) :=
  (W7_of_ne m ρ c main_arg4 (by decide)).trans (W6_main_arg4 m ρ c)

theorem W7_main_arg5 (c : Dev nD) : W7 m ρ c (Proc.devRef .tc main_arg5) = (m ((c : Thread nD τ).loc main_arg5)) :=
  (W7_of_ne m ρ c main_arg5 (by decide)).trans (W6_main_arg5 m ρ c)

theorem W7_main_arg6 (c : Dev nD) : W7 m ρ c (Proc.devRef .tc main_arg6) = (m ((c : Thread nD τ).loc main_arg6)) :=
  (W7_of_ne m ρ c main_arg6 (by decide)).trans (W6_main_arg6 m ρ c)

theorem W7_main_arg7 (c : Dev nD) : W7 m ρ c (Proc.devRef .tc main_arg7) = (m ((c : Thread nD τ).loc main_arg7)) :=
  (W7_of_ne m ρ c main_arg7 (by decide)).trans (W6_main_arg7 m ρ c)

theorem W7_main_arg8 (c : Dev nD) : W7 m ρ c (Proc.devRef .tc main_arg8) = (m ((c : Thread nD τ).loc main_arg8)) :=
  (W7_of_ne m ρ c main_arg8 (by decide)).trans (W6_main_arg8 m ρ c)

theorem W7_main_arg9 (c : Dev nD) : W7 m ρ c (Proc.devRef .tc main_arg9) = (m ((c : Thread nD τ).loc main_arg9)) :=
  (W7_of_ne m ρ c main_arg9 (by decide)).trans (W6_main_arg9 m ρ c)

theorem W7_main_arg10 (c : Dev nD) : W7 m ρ c (Proc.devRef .tc main_arg10) = (m ((c : Thread nD τ).loc main_arg10)) :=
  (W7_of_ne m ρ c main_arg10 (by decide)).trans (W6_main_arg10 m ρ c)

theorem W7_main_arg11 (c : Dev nD) : W7 m ρ c (Proc.devRef .tc main_arg11) = (m ((c : Thread nD τ).loc main_arg11)) :=
  (W7_of_ne m ρ c main_arg11 (by decide)).trans (W6_main_arg11 m ρ c)

theorem W7_main_arg12 (c : Dev nD) : W7 m ρ c (Proc.devRef .tc main_arg12) = (m ((c : Thread nD τ).loc main_arg12)) :=
  (W7_of_ne m ρ c main_arg12 (by decide)).trans (W6_main_arg12 m ρ c)

theorem W7_main_v8 (c : Dev nD) : W7 m ρ c (Proc.devRef .tc main_v8) = (Glue.invDeg (m ((c : Thread nD τ).loc main_arg11))) :=
  (W7_of_ne m ρ c main_v8 (by decide)).trans (W6_main_v8 m ρ c)

theorem W7_main_v17 (c : Dev nD) : W7 m ρ c (Proc.devRef .tc main_v17) = (Glue.invDeg (m ((c : Thread nD τ).loc main_arg10))) :=
  (W7_of_ne m ρ c main_v17 (by decide)).trans (W6_main_v17 m ρ c)

/-! ## Before layer 1: x₁ kept, its neighbourhood means and layer 1 of the parameters computed -/

theorem W8_main_v63 (c : Dev nD) : W8 m ρ c (Proc.devRef .tc main_v63) = x1 m c := by
  show StableHlo.after hostOps2 (W7 m ρ c) (Proc.devRef .tc main_v63) = _
  after_results_simp
  exact W7_main_v63 m ρ c

theorem W8_main_arg12 (c : Dev nD) : W8 m ρ c (Proc.devRef .tc main_arg12) = (m ((c : Thread nD τ).loc main_arg12)) := by
  show StableHlo.after hostOps2 (W7 m ρ c) (Proc.devRef .tc main_arg12) = _
  after_results_simp
  exact W7_main_arg12 m ρ c

/-- The forward neighbourhood mean of x₁. -/
def nf2 (c : Dev nD) : S100000x64.Idx → EReal :=
  Glue.neigh (x1 m c) (m ((c : Thread nD τ).loc main_arg1)) (m ((c : Thread nD τ).loc main_arg10)) (m ((c : Thread nD τ).loc main_arg11)) (Glue.invDeg (m ((c : Thread nD τ).loc main_arg11)))
/-- The reversed neighbourhood mean of x₁. -/
def nr2 (c : Dev nD) : S100000x64.Idx → EReal :=
  Glue.neigh (x1 m c) (m ((c : Thread nD τ).loc main_arg1)) (m ((c : Thread nD τ).loc main_arg11)) (m ((c : Thread nD τ).loc main_arg10)) (Glue.invDeg (m ((c : Thread nD τ).loc main_arg10)))

theorem W8_main_v79 (c : Dev nD) : W8 m ρ c (Proc.devRef .tc main_v79) = nf2 m c := by
  show StableHlo.after hostOps2 (W7 m ρ c) (Proc.devRef .tc main_v79) = _
  after_results_simp
  rw [W7_main_v63, W7_main_arg1, W7_main_arg10, W7_main_arg11, W7_main_v8]
  rfl

theorem W8_main_v95 (c : Dev nD) : W8 m ρ c (Proc.devRef .tc main_v95) = nr2 m c := by
  show StableHlo.after hostOps2 (W7 m ρ c) (Proc.devRef .tc main_v95) = _
  after_results_simp
  rw [W7_main_v63, W7_main_arg1, W7_main_arg10, W7_main_arg11, W7_main_v17]
  rfl

theorem W8_main_v97 (c : Dev nD) : W8 m ρ c (Proc.devRef .tc main_v97) = Glue.wmat1 (m ((c : Thread nD τ).loc main_arg4)) := by
  show StableHlo.after hostOps2 (W7 m ρ c) (Proc.devRef .tc main_v97) = _
  after_results_simp
  rw [W7_main_arg4]
  rfl

theorem W8_main_v99 (c : Dev nD) : W8 m ρ c (Proc.devRef .tc main_v99) = Glue.wmat1 (m ((c : Thread nD τ).loc main_arg5)) := by
  show StableHlo.after hostOps2 (W7 m ρ c) (Proc.devRef .tc main_v99) = _
  after_results_simp
  rw [W7_main_arg5]
  rfl

theorem W8_main_v101 (c : Dev nD) : W8 m ρ c (Proc.devRef .tc main_v101) = Glue.bvec1 (m ((c : Thread nD τ).loc main_arg6)) := by
  show StableHlo.after hostOps2 (W7 m ρ c) (Proc.devRef .tc main_v101) = _
  after_results_simp
  rw [W7_main_arg6]
  rfl

theorem W8_main_v103 (c : Dev nD) : W8 m ρ c (Proc.devRef .tc main_v103) = Glue.wmat1 (m ((c : Thread nD τ).loc main_arg7)) := by
  show StableHlo.after hostOps2 (W7 m ρ c) (Proc.devRef .tc main_v103) = _
  after_results_simp
  rw [W7_main_arg7]
  rfl

theorem W8_main_v105 (c : Dev nD) : W8 m ρ c (Proc.devRef .tc main_v105) = Glue.wmat1 (m ((c : Thread nD τ).loc main_arg8)) := by
  show StableHlo.after hostOps2 (W7 m ρ c) (Proc.devRef .tc main_v105) = _
  after_results_simp
  rw [W7_main_arg8]
  rfl

theorem W8_main_v107 (c : Dev nD) : W8 m ρ c (Proc.devRef .tc main_v107) = Glue.bvec1 (m ((c : Thread nD τ).loc main_arg9)) := by
  show StableHlo.after hostOps2 (W7 m ρ c) (Proc.devRef .tc main_v107) = _
  after_results_simp
  rw [W7_main_arg9]
  rfl

/-! ## Layer 1's array x₂, the gathered rows, the result -/

/-- x₂: layer 1's array function of x₁, its two neighbourhood means and layer 1 of the parameters. -/
def x2 (c : Dev nD) : S100000x64.Idx → EReal :=
  Layer2.layerArr (x1 m c) (nf2 m c) (nr2 m c) (Glue.wmat1 (m ((c : Thread nD τ).loc main_arg4))) (Glue.wmat1 (m ((c : Thread nD τ).loc main_arg5)))
    (Glue.wmat1 (m ((c : Thread nD τ).loc main_arg7))) (Glue.wmat1 (m ((c : Thread nD τ).loc main_arg8))) (Glue.bvec1 (m ((c : Thread nD τ).loc main_arg6))) (Glue.bvec1 (m ((c : Thread nD τ).loc main_arg9)))

theorem W9_main_v108 (c : Dev nD) : W9 m ρ c (Proc.devRef .tc main_v108) = x2 m c := by
  refine (W9_arr m ρ c 9).trans ((Layer2.final (V8 m ρ) c).trans ?_)
  show Layer2.layerArr (W8 m ρ c (Proc.devRef .tc main_v63)) (W8 m ρ c (Proc.devRef .tc main_v79)) (W8 m ρ c (Proc.devRef .tc main_v95))
    (W8 m ρ c (Proc.devRef .tc main_v97)) (W8 m ρ c (Proc.devRef .tc main_v99)) (W8 m ρ c (Proc.devRef .tc main_v103)) (W8 m ρ c (Proc.devRef .tc main_v105))
    (W8 m ρ c (Proc.devRef .tc main_v101)) (W8 m ρ c (Proc.devRef .tc main_v107)) = _
  rw [W8_main_v63, W8_main_v79, W8_main_v95, W8_main_v97, W8_main_v99, W8_main_v103, W8_main_v105, W8_main_v101, W8_main_v107]
  rfl

theorem W9_main_arg12 (c : Dev nD) : W9 m ρ c (Proc.devRef .tc main_arg12) = (m ((c : Thread nD τ).loc main_arg12)) :=
  (W9_of_ne m ρ c main_arg12 (by decide)).trans (W8_main_arg12 m ρ c)

/-- The rows of x₂ picked by the id vector. -/
def feat (c : Dev nD) : S1024x64.Idx → EReal := Glue.rowsOf (x2 m c) (m ((c : Thread nD τ).loc main_arg12))

theorem W10_main_v115 (c : Dev nD) : W10 m ρ c (Proc.devRef .tc main_v115) = feat m c := by
  show StableHlo.after hostOps3 (W9 m ρ c) (Proc.devRef .tc main_v115) = _
  after_results_simp
  rw [W9_main_v108, W9_main_arg12]
  rfl

/-- The kernel's result array: the gathered rows, each times the reciprocal of its root sum of squares. -/
theorem result_eq (c : Dev nD) : (dat3 (V10 m ρ) c).arrAt 1 cfg3.N = Norm.normArr (feat m c) := by
  refine (Norm.final (V10 m ρ) c).trans ?_
  show Norm.normArr (W10 m ρ c (Proc.devRef .tc main_v115)) = _
  rw [W10_main_v115]

end Cert.KernelIdeal.Folds

end
-- ==== Proof.RefStages.lean ====
/-
  The reference, stage by stage, in the kernel's terms.

  The reference is a straight line of host operations. Read one operation at a time:
    • its encoder stage is, entry by entry, Σ_k T(r, k)·W(k, e) + b(e): the encoder region's array function;
    • its inverse degree vectors, neighbourhood means, parameter slices and row gather are the SAME host chains the
      kernel's program applies (definitionally: both programs print the same operations);
    • each layer is, entry by entry, x + (f + r) with f, r the two activated branches, where the kernel's layer body
      computes (x + f) + r: equal because addition of extended reals is associative;
    • its last stage divides each gathered row by the root of its sum of squares.
-/
import proofs.«177401_j14783277433090_2_alg».proof.Proof.RefRead
import proofs.«177401_j14783277433090_2_alg».proof.Proof.HostGlue
import proofs.«177401_j14783277433090_2_alg».proof.Proof.EncoderArray
import proofs.«177401_j14783277433090_2_alg».proof.Proof.Layer1Array
import proofs.«177401_j14783277433090_2_alg».proof.Proof.Layer2Array
import proofs.«177401_j14783277433090_2_alg».proof.Proof.NormArray

set_option maxRecDepth 16384

noncomputable section

namespace Cert.ReferenceIdeal.Stages

open Cert.ReferenceIdeal Idealize.ShloMosaic Idealize.ShloMosaic.ValueIdx
open Cert.KernelIdeal (Glue.invDeg Glue.neigh Glue.wmat0 Glue.wmat1 Glue.bvec0 Glue.bvec1 Glue.rowsOf)

variable (a0 : (⟨Cert.ReferenceIdeal.S100000x384, .f32⟩ : BufTy).Contents (Elt Ideal))
  (a1 : (⟨Cert.ReferenceIdeal.S1600000, .f32⟩ : BufTy).Contents (Elt Ideal))
  (a2 : (⟨Cert.ReferenceIdeal.S384x64, .f32⟩ : BufTy).Contents (Elt Ideal))
  (a3 : (⟨Cert.ReferenceIdeal.S64, .f32⟩ : BufTy).Contents (Elt Ideal))
  (a4 : (⟨Cert.ReferenceIdeal.S2x64x64, .f32⟩ : BufTy).Contents (Elt Ideal))
  (a5 : (⟨Cert.ReferenceIdeal.S2x64x64, .f32⟩ : BufTy).Contents (Elt Ideal))
  (a6 : (⟨Cert.ReferenceIdeal.S2x64, .f32⟩ : BufTy).Contents (Elt Ideal))
  (a7 : (⟨Cert.ReferenceIdeal.S2x64x64, .f32⟩ : BufTy).Contents (Elt Ideal))
  (a8 : (⟨Cert.ReferenceIdeal.S2x64x64, .f32⟩ : BufTy).Contents (Elt Ideal))
  (a9 : (⟨Cert.ReferenceIdeal.S2x64, .f32⟩ : BufTy).Contents (Elt Ideal))
  (a10 : (⟨Cert.ReferenceIdeal.S1600000, .i32⟩ : BufTy).Contents (Elt Ideal))
  (a11 : (⟨Cert.ReferenceIdeal.S1600000, .i32⟩ : BufTy).Contents (Elt Ideal))
  (a12 : (⟨Cert.ReferenceIdeal.S1024, .i32⟩ : BufTy).Contents (Elt Ideal))

/-! ## The encoder -/

theorem enc_eq : (ReadP.val_main_v21 (F := Ideal) a0 a2 a3) = Cert.KernelIdeal.Enc.encArr a0 a2 a3 := by
  funext i
  obtain ⟨r, e, rfl⟩ : ∃ (r : Fin 100000) (e : Fin 64), i = ix2 r e := ⟨i 0, i 1, eq_ix2 i⟩
  rw [Cert.KernelIdeal.Enc.encArr_ix2]
  unfold Cert.Sage.encAt
  rw [ReadP.val_main_v21_apply, ReadP.val_main_v18_apply, ReadP.val_main_v20_apply, ReadP.val_main_v19_apply]
  have hl : ∀ k : Fin 384, ReadP.lidx_main_v18 (ix2 r e) k = ix2 r k := fun k => funext fun a => Fin.ext (by match a with | ⟨0, _⟩ => rfl | ⟨1, _⟩ => rfl)
  have hr : ∀ k : Fin 384, ReadP.ridx_main_v18 (ix2 r e) k = ix2 k e := fun k => funext fun a => Fin.ext (by match a with | ⟨0, _⟩ => rfl | ⟨1, _⟩ => rfl)
  have hb : ReadP.idx_main_v19 (ReadP.idx_main_v20 (ix2 r e)) = ix1 e := funext fun a => Fin.ext (by match a with | ⟨0, _⟩ => rfl)
  simp only [hl, hr, hb]
  rfl

/-! ## The shared host chains -/

theorem invF_eq : (ReadP.val_main_v8 (F := Ideal) a11) = Cert.KernelIdeal.Glue.invDeg a11 := rfl
theorem invR_eq : (ReadP.val_main_v17 (F := Ideal) a10) = Cert.KernelIdeal.Glue.invDeg a10 := rfl
theorem nf1_eq : (ReadP.val_main_v43 (F := Ideal) a0 a1 a2 a3 a10 a11) = Cert.KernelIdeal.Glue.neigh (ReadP.val_main_v21 (F := Ideal) a0 a2 a3) a1 a10 a11 (ReadP.val_main_v8 (F := Ideal) a11) := rfl
theorem nr1_eq : (ReadP.val_main_v72 (F := Ideal) a0 a1 a2 a3 a10 a11) = Cert.KernelIdeal.Glue.neigh (ReadP.val_main_v21 (F := Ideal) a0 a2 a3) a1 a11 a10 (ReadP.val_main_v17 (F := Ideal) a10) := rfl
theorem nf2_eq : (ReadP.val_main_v103 (F := Ideal) a0 a1 a2 a3 a4 a5 a6 a7 a8 a9 a10 a11) = Cert.KernelIdeal.Glue.neigh (ReadP.val_main_v81 (F := Ideal) a0 a1 a2 a3 a4 a5 a6 a7 a8 a9 a10 a11) a1 a10 a11 (ReadP.val_main_v8 (F := Ideal) a11) := rfl
theorem nr2_eq : (ReadP.val_main_v132 (F := Ideal) a0 a1 a2 a3 a4 a5 a6 a7 a8 a9 a10 a11) = Cert.KernelIdeal.Glue.neigh (ReadP.val_main_v81 (F := Ideal) a0 a1 a2 a3 a4 a5 a6 a7 a8 a9 a10 a11) a1 a11 a10 (ReadP.val_main_v17 (F := Ideal) a10) := rfl
theorem wsf0_eq : (ReadP.val_main_v23 (F := Ideal) a4) = Cert.KernelIdeal.Glue.wmat0 a4 := rfl
theorem wnf0_eq : (ReadP.val_main_v25 (F := Ideal) a5) = Cert.KernelIdeal.Glue.wmat0 a5 := rfl
theorem bf0_eq : (ReadP.val_main_v27 (F := Ideal) a6) = Cert.KernelIdeal.Glue.bvec0 a6 := rfl
theorem wsr0_eq : (ReadP.val_main_v52 (F := Ideal) a7) = Cert.KernelIdeal.Glue.wmat0 a7 := rfl
theorem wnr0_eq : (ReadP.val_main_v54 (F := Ideal) a8) = Cert.KernelIdeal.Glue.wmat0 a8 := rfl
theorem br0_eq : (ReadP.val_main_v56 (F := Ideal) a9) = Cert.KernelIdeal.Glue.bvec0 a9 := rfl
theorem wsf1_eq : (ReadP.val_main_v83 (F := Ideal) a4) = Cert.KernelIdeal.Glue.wmat1 a4 := rfl
theorem wnf1_eq : (ReadP.val_main_v85 (F := Ideal) a5) = Cert.KernelIdeal.Glue.wmat1 a5 := rfl
theorem bf1_eq : (ReadP.val_main_v87 (F := Ideal) a6) = Cert.KernelIdeal.Glue.bvec1 a6 := rfl
theorem wsr1_eq : (ReadP.val_main_v112 (F := Ideal) a7) = Cert.KernelIdeal.Glue.wmat1 a7 := rfl
theorem wnr1_eq : (ReadP.val_main_v114 (F := Ideal) a8) = Cert.KernelIdeal.Glue.wmat1 a8 := rfl
theorem br1_eq : (ReadP.val_main_v116 (F := Ideal) a9) = Cert.KernelIdeal.Glue.bvec1 a9 := rfl
theorem feat_eq : (ReadP.val_main_v148 (F := Ideal) a0 a1 a2 a3 a4 a5 a6 a7 a8 a9 a10 a11 a12) = Cert.KernelIdeal.Glue.rowsOf (ReadP.val_main_v141 (F := Ideal) a0 a1 a2 a3 a4 a5 a6 a7 a8 a9 a10 a11) a12 := rfl

/-! ## The layers -/

/-- Layer 0 of the reference, entry by entry: its features plus the SUM of the two activated branches — the same entry
    as the kernel's array, which adds the branches one after the other. -/
theorem layer1_eq :
    (ReadP.val_main_v81 (F := Ideal) a0 a1 a2 a3 a4 a5 a6 a7 a8 a9 a10 a11)
      = Cert.KernelIdeal.Layer1.layerArr (ReadP.val_main_v21 (F := Ideal) a0 a2 a3) (ReadP.val_main_v43 (F := Ideal) a0 a1 a2 a3 a10 a11) (ReadP.val_main_v72 (F := Ideal) a0 a1 a2 a3 a10 a11)
          (ReadP.val_main_v23 (F := Ideal) a4) (ReadP.val_main_v25 (F := Ideal) a5) (ReadP.val_main_v52 (F := Ideal) a7) (ReadP.val_main_v54 (F := Ideal) a8) (ReadP.val_main_v27 (F := Ideal) a6) (ReadP.val_main_v56 (F := Ideal) a9) := by
  funext i
  obtain ⟨r, e, rfl⟩ : ∃ (r : Fin 100000) (e : Fin 64), i = ix2 r e := ⟨i 0, i 1, eq_ix2 i⟩
  rw [Cert.KernelIdeal.Layer1.layerArr_ix2]
  unfold Cert.Sage.layerAt Cert.Sage.branchAt
  rw [ReadP.val_main_v81_apply,
    ReadP.val_main_v80_apply,
    ReadP.val_main_v50_apply,
    ReadP.val_main_v79_apply,
    ReadP.val_main_v49_apply,
    ReadP.val_main_v78_apply,
    ReadP.val_main_v46_apply,
    ReadP.val_main_v75_apply,
    ReadP.val_main_v44_apply,
    ReadP.val_main_v45_apply,
    ReadP.val_main_v73_apply,
    ReadP.val_main_v74_apply,
    ReadP.val_main_v48_apply,
    ReadP.val_main_v47_apply,
    ReadP.val_main_v77_apply,
    ReadP.val_main_v76_apply,
    ReadP.val_main_call2_v0_apply,
    ReadP.val_main_call2_cst_apply,
    ReadP.val_main_call3_v0_apply,
    ReadP.val_main_call3_cst_apply]
  have hl44 : ∀ k : Fin 64, ReadP.lidx_main_v44 (ix2 r e) k = ix2 r k := fun k => funext fun a => Fin.ext (by match a with | ⟨0, _⟩ => rfl | ⟨1, _⟩ => rfl)
  have hr44 : ∀ k : Fin 64, ReadP.ridx_main_v44 (ix2 r e) k = ix2 k e := fun k => funext fun a => Fin.ext (by match a with | ⟨0, _⟩ => rfl | ⟨1, _⟩ => rfl)
  have hl45 : ∀ k : Fin 64, ReadP.lidx_main_v45 (ix2 r e) k = ix2 r k := fun k => funext fun a => Fin.ext (by match a with | ⟨0, _⟩ => rfl | ⟨1, _⟩ => rfl)
  have hr45 : ∀ k : Fin 64, ReadP.ridx_main_v45 (ix2 r e) k = ix2 k e := fun k => funext fun a => Fin.ext (by match a with | ⟨0, _⟩ => rfl | ⟨1, _⟩ => rfl)
  have hl73 : ∀ k : Fin 64, ReadP.lidx_main_v73 (ix2 r e) k = ix2 r k := fun k => funext fun a => Fin.ext (by match a with | ⟨0, _⟩ => rfl | ⟨1, _⟩ => rfl)
  have hr73 : ∀ k : Fin 64, ReadP.ridx_main_v73 (ix2 r e) k = ix2 k e := fun k => funext fun a => Fin.ext (by match a with | ⟨0, _⟩ => rfl | ⟨1, _⟩ => rfl)
  have hl74 : ∀ k : Fin 64, ReadP.lidx_main_v74 (ix2 r e) k = ix2 r k := fun k => funext fun a => Fin.ext (by match a with | ⟨0, _⟩ => rfl | ⟨1, _⟩ => rfl)
  have hr74 : ∀ k : Fin 64, ReadP.ridx_main_v74 (ix2 r e) k = ix2 k e := fun k => funext fun a => Fin.ext (by match a with | ⟨0, _⟩ => rfl | ⟨1, _⟩ => rfl)
  have hb48 : ReadP.idx_main_v47 (ReadP.idx_main_v48 (ix2 r e)) = ix1 e := funext fun a => Fin.ext (by match a with | ⟨0, _⟩ => rfl)
  have hb77 : ReadP.idx_main_v76 (ReadP.idx_main_v77 (ix2 r e)) = ix1 e := funext fun a => Fin.ext (by match a with | ⟨0, _⟩ => rfl)
  simp only [hl44, hr44, hl45, hr45, hl73, hr73, hl74, hr74, hb48, hb77]
  exact (Cert.Sage.skip_regroup _ _ _).symm

/-- Layer 1 of the reference, entry by entry: its features plus the SUM of the two activated branches — the same entry
    as the kernel's array, which adds the branches one after the other. -/
theorem layer2_eq :
    (ReadP.val_main_v141 (F := Ideal) a0 a1 a2 a3 a4 a5 a6 a7 a8 a9 a10 a11)
      = Cert.KernelIdeal.Layer2.layerArr (ReadP.val_main_v81 (F := Ideal) a0 a1 a2 a3 a4 a5 a6 a7 a8 a9 a10 a11) (ReadP.val_main_v103 (F := Ideal) a0 a1 a2 a3 a4 a5 a6 a7 a8 a9 a10 a11) (ReadP.val_main_v132 (F := Ideal) a0 a1 a2 a3 a4 a5 a6 a7 a8 a9 a10 a11)
          (ReadP.val_main_v83 (F := Ideal) a4) (ReadP.val_main_v85 (F := Ideal) a5) (ReadP.val_main_v112 (F := Ideal) a7) (ReadP.val_main_v114 (F := Ideal) a8) (ReadP.val_main_v87 (F := Ideal) a6) (ReadP.val_main_v116 (F := Ideal) a9) := by
  funext i
  obtain ⟨r, e, rfl⟩ : ∃ (r : Fin 100000) (e : Fin 64), i = ix2 r e := ⟨i 0, i 1, eq_ix2 i⟩
  rw [Cert.KernelIdeal.Layer2.layerArr_ix2]
  unfold Cert.Sage.layerAt Cert.Sage.branchAt
  rw [ReadP.val_main_v141_apply,
    ReadP.val_main_v140_apply,
    ReadP.val_main_v110_apply,
    ReadP.val_main_v139_apply,
    ReadP.val_main_v109_apply,
    ReadP.val_main_v138_apply,
    ReadP.val_main_v106_apply,
    ReadP.val_main_v135_apply,
    ReadP.val_main_v104_apply,
    ReadP.val_main_v105_apply,
    ReadP.val_main_v133_apply,
    ReadP.val_main_v134_apply,
    ReadP.val_main_v108_apply,
    ReadP.val_main_v107_apply,
    ReadP.val_main_v137_apply,
    ReadP.val_main_v136_apply,
    ReadP.val_main_call4_v0_apply,
    ReadP.val_main_call4_cst_apply,
    ReadP.val_main_call5_v0_apply,
    ReadP.val_main_call5_cst_apply]
  have hl104 : ∀ k : Fin 64, ReadP.lidx_main_v104 (ix2 r e) k = ix2 r k := fun k => funext fun a => Fin.ext (by match a with | ⟨0, _⟩ => rfl | ⟨1, _⟩ => rfl)
  have hr104 : ∀ k : Fin 64, ReadP.ridx_main_v104 (ix2 r e) k = ix2 k e := fun k => funext fun a => Fin.ext (by match a with | ⟨0, _⟩ => rfl | ⟨1, _⟩ => rfl)
  have hl105 : ∀ k : Fin 64, ReadP.lidx_main_v105 (ix2 r e) k = ix2 r k := fun k => funext fun a => Fin.ext (by match a with | ⟨0, _⟩ => rfl | ⟨1, _⟩ => rfl)
  have hr105 : ∀ k : Fin 64, ReadP.ridx_main_v105 (ix2 r e) k = ix2 k e := fun k => funext fun a => Fin.ext (by match a with | ⟨0, _⟩ => rfl | ⟨1, _⟩ => rfl)
  have hl133 : ∀ k : Fin 64, ReadP.lidx_main_v133 (ix2 r e) k = ix2 r k := fun k => funext fun a => Fin.ext (by match a with | ⟨0, _⟩ => rfl | ⟨1, _⟩ => rfl)
  have hr133 : ∀ k : Fin 64, ReadP.ridx_main_v133 (ix2 r e) k = ix2 k e := fun k => funext fun a => Fin.ext (by match a with | ⟨0, _⟩ => rfl | ⟨1, _⟩ => rfl)
  have hl134 : ∀ k : Fin 64, ReadP.lidx_main_v134 (ix2 r e) k = ix2 r k := fun k => funext fun a => Fin.ext (by match a with | ⟨0, _⟩ => rfl | ⟨1, _⟩ => rfl)
  have hr134 : ∀ k : Fin 64, ReadP.ridx_main_v134 (ix2 r e) k = ix2 k e := fun k => funext fun a => Fin.ext (by match a with | ⟨0, _⟩ => rfl | ⟨1, _⟩ => rfl)
  have hb108 : ReadP.idx_main_v107 (ReadP.idx_main_v108 (ix2 r e)) = ix1 e := funext fun a => Fin.ext (by match a with | ⟨0, _⟩ => rfl)
  have hb137 : ReadP.idx_main_v136 (ReadP.idx_main_v137 (ix2 r e)) = ix1 e := funext fun a => Fin.ext (by match a with | ⟨0, _⟩ => rfl)
  simp only [hl104, hr104, hl105, hr105, hl133, hr133, hl134, hr134, hb108, hb137]
  exact (Cert.Sage.skip_regroup _ _ _).symm

/-! ## The last stage -/

/-- The reference's result, entry by entry: the gathered entry divided by the root of its row's sum of squares. -/
theorem out_apply (b : Fin 1024) (e : Fin 64) :
    (ReadP.val_main_v151 (F := Ideal) a0 a1 a2 a3 a4 a5 a6 a7 a8 a9 a10 a11 a12) (ix2 b e)
      = Ideal.div ((ReadP.val_main_v148 (F := Ideal) a0 a1 a2 a3 a4 a5 a6 a7 a8 a9 a10 a11 a12) (ix2 b e))
          (Ideal.sqrt (∑ k : Fin 64, (ReadP.val_main_v148 (F := Ideal) a0 a1 a2 a3 a4 a5 a6 a7 a8 a9 a10 a11 a12) (ix2 b k) * (ReadP.val_main_v148 (F := Ideal) a0 a1 a2 a3 a4 a5 a6 a7 a8 a9 a10 a11 a12) (ix2 b k))) := by
  rw [ReadP.val_main_v151_apply, ReadP.val_main_v150_apply, ReadP.val_main_v149_apply, ReadP.val_main_call6_v2_apply,
    ReadP.val_main_call6_v1_apply, ReadP.val_main_call6_cst_apply]
  have hk : ∀ k : Fin 64, ReadP.idx_main_call6_v1 (ReadP.idx_main_call6_v2 (ReadP.idx_main_v150 (ix2 b e))) k = ix2 b k := fun k => funext fun a => Fin.ext (by match a with | ⟨0, _⟩ => rfl | ⟨1, _⟩ => rfl)
  simp only [hk, ReadP.val_main_call6_v0_apply]
  show Ideal.div _ (Ideal.sqrt (Ideal.ofBits .f32 0x00000000#32 + _)) = _
  rw [Ideal.ofBits_zero_f32, zero_add]
  rfl

/-- The root of a gathered row's sum of squares, as the reference's norm stage holds it. -/
theorem norm_apply (b : Fin 1024) (u : Fin 1) :
    (ReadP.val_main_v149 (F := Ideal) a0 a1 a2 a3 a4 a5 a6 a7 a8 a9 a10 a11 a12) (ix2 b u)
      = Ideal.sqrt (∑ k : Fin 64, (ReadP.val_main_v148 (F := Ideal) a0 a1 a2 a3 a4 a5 a6 a7 a8 a9 a10 a11 a12) (ix2 b k) * (ReadP.val_main_v148 (F := Ideal) a0 a1 a2 a3 a4 a5 a6 a7 a8 a9 a10 a11 a12) (ix2 b k)) := by
  rw [ReadP.val_main_v149_apply, ReadP.val_main_call6_v2_apply, ReadP.val_main_call6_v1_apply, ReadP.val_main_call6_cst_apply]
  have hk : ∀ k : Fin 64, ReadP.idx_main_call6_v1 (ReadP.idx_main_call6_v2 (ix2 b u)) k = ix2 b k := fun k => funext fun a => Fin.ext (by match a with | ⟨0, _⟩ => rfl | ⟨1, _⟩ => rfl)
  simp only [hk, ReadP.val_main_call6_v0_apply]
  show Ideal.sqrt (Ideal.ofBits .f32 0x00000000#32 + _) = _
  rw [Ideal.ofBits_zero_f32, zero_add]
  rfl

end Cert.ReferenceIdeal.Stages

end
-- ==== Proof.Bridge.lean ====
/-
  The two programs compute one function.

  Stage by stage the reference's values are the kernel's arrays: the encoder stage is x₀; the neighbourhood means of
  equal features are equal (the same host chain applied to equal values); each layer is the kernel's layer array
  (associativity of the sum of the two branches); the gathered rows are equal. On those rows the reference divides each
  entry by its row's norm s while the kernel multiplies it with 1/s: equal whenever s ≠ 0, which the precondition
  guarantees (every row norm is positive).
-/
import proofs.«177401_j14783277433090_2_alg».proof.Proof.Folds
import proofs.«177401_j14783277433090_2_alg».proof.Proof.RefStages

set_option maxRecDepth 16384

noncomputable section

namespace Cert.Bridge

open Cert.ReferenceIdeal Cert.KernelIdeal Idealize.ShloMosaic Idealize.ShloMosaic.ValueIdx Idealize.SL.Sem Idealize.ShloMosaic.TcCoe

variable (m : (ℓ : Loc Cert.KernelIdeal.nD Cert.KernelIdeal.τ Cert.KernelIdeal.sig) → Buf (Elt Ideal) ℓ) (c : Dev Cert.KernelIdeal.nD)

theorem x0_eq : (ReadP.val_main_v21 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3))) = Folds.x0 m c := Stages.enc_eq _ _ _

theorem nf1_eq : (ReadP.val_main_v43 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg10)) (m ((c : Thread Cert.KernelIdeal.nD Cert.KernelIdeal.τ).loc Cert.KernelIdeal.main_arg11))) = Folds.nf1 m c := by
  rw [Stages.nf1_eq, x0_eq, Stages.invF_eq]; rfl

theorem nr1_eq : (ReadP.val_main_v72 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg10)) (m ((c : Thread Cert.KernelIdeal.nD Cert.KernelIdeal.τ).loc Cert.KernelIdeal.main_arg11))) = Folds.nr1 m c := by
  rw [Stages.nr1_eq, x0_eq, Stages.invR_eq]; rfl

theorem x1_eq : (ReadP.val_main_v81 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))) = Folds.x1 m c := by
  rw [Stages.layer1_eq, x0_eq, nf1_eq, nr1_eq, Stages.wsf0_eq, Stages.wnf0_eq, Stages.wsr0_eq, Stages.wnr0_eq, Stages.bf0_eq, Stages.br0_eq]; rfl

theorem nf2_eq : (ReadP.val_main_v103 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))) = Folds.nf2 m c := by
  rw [Stages.nf2_eq, x1_eq, Stages.invF_eq]; rfl

theorem nr2_eq : (ReadP.val_main_v132 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))) = Folds.nr2 m c := by
  rw [Stages.nr2_eq, x1_eq, Stages.invR_eq]; rfl

theorem x2_eq : (ReadP.val_main_v141 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))) = Folds.x2 m c := by
  rw [Stages.layer2_eq, x1_eq, nf2_eq, nr2_eq, Stages.wsf1_eq, Stages.wnf1_eq, Stages.wsr1_eq, Stages.wnr1_eq, Stages.bf1_eq, Stages.br1_eq]; rfl

theorem feat_eq : (ReadP.val_main_v148 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))) = Folds.feat m c := by
  rw [Stages.feat_eq, x2_eq]; rfl

/-- Where every gathered row has a positive norm, the reference's result is the kernel's result array. -/
theorem result_eq (hn : ∀ (b : Fin 1024) (u : Fin 1), 0 < (ReadP.val_main_v149 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))) (ix2 b u)) :
    (ReadP.val_main_v151 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))) = Norm.normArr (Folds.feat m c) := by
  funext i
  obtain ⟨b, e, rfl⟩ : ∃ (b : Fin 1024) (e : Fin 64), i = ix2 b e := ⟨i 0, i 1, eq_ix2 i⟩
  have hs := hn b 0
  rw [Stages.norm_apply, feat_eq] at hs
  rw [Norm.normArr_ix2, Stages.out_apply, feat_eq]
  unfold Norm.normAt
  exact (Cert.Sage.mul_recip_eq_div _ _ (ne_of_gt hs)).symm

end Cert.Bridge

end
-- ==== Proof.LibPositivePre.lean ====
/-
  A printed precondition test `jnp.all(x > 0)`, read at the ideal values: if the test holds, every entry of `x` is a
  positive extended real. The test prints as a comparison of `x` with the zero constant spread over `x`'s shape,
  and-reduced over every axis from the constant `true`; an and-reduction that is 1 has every operand bit 1
  (`Host.reduce_andi_all`), the spread constant reads 0 at every index, and the comparison `x > 0` of extended reals
  is the order's.
-/
import Idealize.ShloMosaic.Lib.ReduceAll
import Idealize.ShloMosaic.Lib.Pipeline.Value
import Idealize.ShloMosaic.Lib.ValueIdx
import Idealize.ShloMosaic.PureOps.Ideal.Laws

noncomputable section

namespace Cert.LibPositivePre

open Idealize.ShloMosaic Idealize.ShloMosaic.ValueIdx

/-- A rank-0 shape has one index. -/
instance : Subsingleton (⟨0, ![]⟩ : Shape).Idx := ⟨fun a b => funext fun d => d.elim0⟩

/-- The bit of a decision is 1 exactly when the decision is true. -/
theorem ofBool_eq_one (b : Bool) : BitVec.ofBool b = 1#1 ↔ b = true := by cases b <;> decide

/-- x > 0 on the extended reals is the order's. -/
theorem pos_of_cmp (x : EReal) (h : Ideal.cmp .ogt x 0 = 1#1) : 0 < x :=
  of_decide_eq_true ((ofBool_eq_one _).1 h)

/-- A test "every entry > 0" that holds says every entry is positive. -/
theorem all_pos {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .ogt a (broadcastInDim s ![] hb (constant (F := Ideal) ⟨0, ![]⟩ .f32 0x00000000#32)))
      (constantI ⟨0, ![]⟩ 1 1#1) hr hu ix0 = 1#1) (i : s.Idx) : 0 < a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine pos_of_cmp (a i) ?_
  have h2 : Ideal.cmp .ogt (a i) (broadcastInDim s ![] hb (constant (F := Ideal) ⟨0, ![]⟩ .f32 0x00000000#32) i) = 1#1 := h
  rwa [hb'] at h2

end Cert.LibPositivePre

end
-- ==== Proof.PreNorm.lean ====
/-
  What the precondition's last conjunct says.

  Besides the finiteness of the float inputs the precondition asks that every gathered row of the reference's final
  features has a positive norm — the divisor of the reference's own last line, outside which that line is 0/0. The
  conjunct is printed as a straight line of the reference's operations ending in "every norm > 0"; its norm term is the
  reference's own norm stage (the same operations, definitionally), so a memory of which the precondition holds has
  every one of those norms positive.
-/
import proofs.«177401_j14783277433090_2_alg».proof.Pre_finite_inputs
import proofs.«177401_j14783277433090_2_alg».proof.Proof.Gen.Pre_finite_inputs
import proofs.«177401_j14783277433090_2_alg».proof.Proof.RefRead
import proofs.«177401_j14783277433090_2_alg».proof.Proof.LibPositivePre
import Idealize.ShloMosaic.Lib.Affine

set_option maxRecDepth 65536

noncomputable section

namespace Cert.PreNorm

open Idealize.ShloMosaic Idealize.ShloMosaic.ValueIdx

/-- The precondition is the conjunction of a first part (the finiteness tests) with the test "every row norm of the
    reference's gathered features is positive", the norms being the reference's own norm stage. -/
theorem fn_split (a0 : FVec Ideal Cert.Pre_finite_inputs.S100000x384 .f32) (a1 : FVec Ideal Cert.Pre_finite_inputs.S1600000 .f32) (a2 : FVec Ideal Cert.Pre_finite_inputs.S384x64 .f32) (a3 : FVec Ideal Cert.Pre_finite_inputs.S64 .f32) (a4 : FVec Ideal Cert.Pre_finite_inputs.S2x64x64 .f32) (a5 : FVec Ideal Cert.Pre_finite_inputs.S2x64x64 .f32) (a6 : FVec Ideal Cert.Pre_finite_inputs.S2x64 .f32) (a7 : FVec Ideal Cert.Pre_finite_inputs.S2x64x64 .f32) (a8 : FVec Ideal Cert.Pre_finite_inputs.S2x64x64 .f32) (a9 : FVec Ideal Cert.Pre_finite_inputs.S2x64 .f32) (a10 : IVec Cert.Pre_finite_inputs.S1600000 32) (a11 : IVec Cert.Pre_finite_inputs.S1600000 32) (a12 : IVec Cert.Pre_finite_inputs.S1024 32) :
    ∃ P : IVec Cert.Pre_finite_inputs.S_ 1, Cert.Pre_finite_inputs.fn (F := Ideal) a0 a1 a2 a3 a4 a5 a6 a7 a8 a9 a10 a11 a12
      = andi P (Host.reduce IntOp.andi
          (cmpf (F := Ideal) .ogt (Cert.ReferenceIdeal.ReadP.val_main_v149 (F := Ideal) a0 a1 a2 a3 a4 a5 a6 a7 a8 a9 a10 a11 a12)
            (broadcastInDim Cert.Pre_finite_inputs.S1024x1 ![] Cert.Pre_finite_inputs.Facts.bcast_S_S1024x1 (constant Cert.Pre_finite_inputs.S_ .f32 0x00000000#32)))
          (constantI Cert.Pre_finite_inputs.S_ 1 1#1) Cert.Pre_finite_inputs.Facts.reducesTo_S1024x1_S_d0_1 Cert.Pre_finite_inputs.Facts.h_S_) :=
  ⟨_, rfl⟩

/-- Under the precondition every gathered row's norm, as the reference's norm stage holds it, is positive. -/
theorem norm_pos (a0 : FVec Ideal Cert.Pre_finite_inputs.S100000x384 .f32) (a1 : FVec Ideal Cert.Pre_finite_inputs.S1600000 .f32) (a2 : FVec Ideal Cert.Pre_finite_inputs.S384x64 .f32) (a3 : FVec Ideal Cert.Pre_finite_inputs.S64 .f32) (a4 : FVec Ideal Cert.Pre_finite_inputs.S2x64x64 .f32) (a5 : FVec Ideal Cert.Pre_finite_inputs.S2x64x64 .f32) (a6 : FVec Ideal Cert.Pre_finite_inputs.S2x64 .f32) (a7 : FVec Ideal Cert.Pre_finite_inputs.S2x64x64 .f32) (a8 : FVec Ideal Cert.Pre_finite_inputs.S2x64x64 .f32) (a9 : FVec Ideal Cert.Pre_finite_inputs.S2x64 .f32) (a10 : IVec Cert.Pre_finite_inputs.S1600000 32) (a11 : IVec Cert.Pre_finite_inputs.S1600000 32) (a12 : IVec Cert.Pre_finite_inputs.S1024 32)
    (h : Cert.Pre_finite_inputs.fn (F := Ideal) a0 a1 a2 a3 a4 a5 a6 a7 a8 a9 a10 a11 a12 = fun _ => 1#1) (b : Fin 1024) (u : Fin 1) :
    0 < Cert.ReferenceIdeal.ReadP.val_main_v149 (F := Ideal) a0 a1 a2 a3 a4 a5 a6 a7 a8 a9 a10 a11 a12 (ix2 b u) := by
  obtain ⟨P, hP⟩ := fn_split a0 a1 a2 a3 a4 a5 a6 a7 a8 a9 a10 a11 a12
  have h0 := congrFun h ix0
  rw [hP] at h0
  exact Cert.LibPositivePre.all_pos _ _ _ _ ((IntOp.andi_eq_one.1 h0).2) (ix2 b u)

end Cert.PreNorm

end
-- ==== Proof.lean ====
/-
  A two-layer mean-aggregation graph network (text encoder, two SAGE layers in both edge directions with a skip
  connection, a row gather and an L2 normalisation) as four Pallas regions among host gather / scatter operations,
  against its plain reference, at the ideal values.

  The precondition: every float input is finite, and every gathered row of the final features has a positive norm (the
  divisor of the reference's own last line; at a zero row that line is 0/0).

  • The frames of both printings of the kernel are the generated frame certificates; the reference's frame is its run
    with the result dropped.
  • The idealizing pass rewrote nothing, so `preserves` is trivial.
  • `algebraic`: the kernel's run ends with every whole-program buffer at the last boundary of the fold through @main
    (KernelBoundary), and read through that fold the result array is the normalised gathered rows of x₂ (Folds, over the
    four regions' array functions: EncoderArray, Layer1Array, Layer2Array, NormArray). The reference's run ends at its
    composed term, which stage by stage is the same function (RefStages, Bridge): the dense stages by reading both
    sides at an index, the host gather / scatter chains because both programs apply the same chains to equal values,
    the layers by associativity of +, and the last line because x · (1/s) = x / s for s ≠ 0 (PreNorm gives s > 0).
-/
import proofs.«177401_j14783277433090_2_alg».proof.Defs
import proofs.«177401_j14783277433090_2_alg».proof.Proof.Gen.Kernel
import proofs.«177401_j14783277433090_2_alg».proof.Proof.Gen.Kernel.Frame
import proofs.«177401_j14783277433090_2_alg».proof.Proof.Gen.KernelIdeal
import proofs.«177401_j14783277433090_2_alg».proof.Proof.Gen.KernelIdeal.Frame
import proofs.«177401_j14783277433090_2_alg».proof.Proof.Gen.ReferenceIdeal
import proofs.«177401_j14783277433090_2_alg».proof.Proof.Gen.Pre_finite_inputs
import proofs.«177401_j14783277433090_2_alg».proof.Proof.KernelBoundary
import proofs.«177401_j14783277433090_2_alg».proof.Proof.Folds
import proofs.«177401_j14783277433090_2_alg».proof.Proof.RefRun
import proofs.«177401_j14783277433090_2_alg».proof.Proof.RefRead
import proofs.«177401_j14783277433090_2_alg».proof.Proof.Bridge
import proofs.«177401_j14783277433090_2_alg».proof.Proof.PreNorm
import Idealize.ShloMosaic.Adequacy
import Idealize.ShloMosaic.Init

set_option maxRecDepth 16384

noncomputable section

namespace Cert.Proof

open Idealize.ShloMosaic Idealize.SL.Sem Idealize.ShloMosaic.TcCoe

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs run, and end with the same result: the gathered rows of x₂, normalised. -/
theorem algebraic : Cert.algebraic_KernelIdeal_ReferenceIdeal := by
  intro m ρ m' ρ' hpre hagree
  refine ⟨fun c => Cert.KernelIdeal.Norm.normArr (Cert.KernelIdeal.Folds.feat m c), ?_, ?_⟩
  · refine (θ_run Cert.KernelIdeal.defs _ _).mono (fun r h c => ⟨(h c).1.trans (Cert.KernelIdeal.Folds.result_eq m ρ c),
      ((h c).2 _ (Cert.KernelIdeal.Gen.mem_uc Cert.KernelIdeal.main_arg0 (by decide))).trans (Cert.KernelIdeal.Gen.W11_main_arg0 m ρ c),
      ((h c).2 _ (Cert.KernelIdeal.Gen.mem_uc Cert.KernelIdeal.main_arg1 (by decide))).trans (Cert.KernelIdeal.Gen.W11_main_arg1 m ρ c),
      ((h c).2 _ (Cert.KernelIdeal.Gen.mem_uc Cert.KernelIdeal.main_arg2 (by decide))).trans (Cert.KernelIdeal.Gen.W11_main_arg2 m ρ c),
      ((h c).2 _ (Cert.KernelIdeal.Gen.mem_uc Cert.KernelIdeal.main_arg3 (by decide))).trans (Cert.KernelIdeal.Gen.W11_main_arg3 m ρ c),
      ((h c).2 _ (Cert.KernelIdeal.Gen.mem_uc Cert.KernelIdeal.main_arg4 (by decide))).trans (Cert.KernelIdeal.Gen.W11_main_arg4 m ρ c),
      ((h c).2 _ (Cert.KernelIdeal.Gen.mem_uc Cert.KernelIdeal.main_arg5 (by decide))).trans (Cert.KernelIdeal.Gen.W11_main_arg5 m ρ c),
      ((h c).2 _ (Cert.KernelIdeal.Gen.mem_uc Cert.KernelIdeal.main_arg6 (by decide))).trans (Cert.KernelIdeal.Gen.W11_main_arg6 m ρ c),
      ((h c).2 _ (Cert.KernelIdeal.Gen.mem_uc Cert.KernelIdeal.main_arg7 (by decide))).trans (Cert.KernelIdeal.Gen.W11_main_arg7 m ρ c),
      ((h c).2 _ (Cert.KernelIdeal.Gen.mem_uc Cert.KernelIdeal.main_arg8 (by decide))).trans (Cert.KernelIdeal.Gen.W11_main_arg8 m ρ c),
      ((h c).2 _ (Cert.KernelIdeal.Gen.mem_uc Cert.KernelIdeal.main_arg9 (by decide))).trans (Cert.KernelIdeal.Gen.W11_main_arg9 m ρ c),
      ((h c).2 _ (Cert.KernelIdeal.Gen.mem_uc Cert.KernelIdeal.main_arg10 (by decide))).trans (Cert.KernelIdeal.Gen.W11_main_arg10 m ρ c),
      ((h c).2 _ (Cert.KernelIdeal.Gen.mem_uc Cert.KernelIdeal.main_arg11 (by decide))).trans (Cert.KernelIdeal.Gen.W11_main_arg11 m ρ c),
      ((h c).2 _ (Cert.KernelIdeal.Gen.mem_uc Cert.KernelIdeal.main_arg12 (by decide))).trans (Cert.KernelIdeal.Gen.W11_main_arg12 m ρ c)⟩)
      (Cert.KernelIdeal.Boundary.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨g0, g1, g2, g3, g4, g5, g6, g7, g8, g9, g10, g11, g12⟩ := hagree c
    rw [Cert.ReferenceIdeal.ReadP.val_main_v151_eq, g0, g1, g2, g3, g4, g5, g6, g7, g8, g9, g10, g11, g12]
    exact Cert.Bridge.result_eq m c (fun b u => Cert.PreNorm.norm_pos _ _ _ _ _ _ _ _ _ _ _ _ _ (hpre c) b u)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
